-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x64 : Shape := ⟨3, ![128, 512, 64]⟩
abbrev S128x1024x64 : Shape := ⟨3, ![128, 1024, 64]⟩
abbrev S128x1024x512 : Shape := ⟨3, ![128, 1024, 512]⟩
abbrev S128x20x1 : Shape := ⟨3, ![128, 20, 1]⟩
abbrev S_ : Shape := ⟨0, ![]⟩

class Facts : Prop where
  bcast_S_S128x512x64 : S_.BroadcastsInDim S128x512x64 (![] : Fin 0 → Fin S128x512x64.rank)
  reducesTo_S128x512x64_S_d0_1_2 : S128x512x64.ReducesTo [0, 1, 2] S_
  h_S_ : 0 < S_.numel
  bcast_S_S128x1024x64 : S_.BroadcastsInDim S128x1024x64 (![] : Fin 0 → Fin S128x1024x64.rank)
  reducesTo_S128x1024x64_S_d0_1_2 : S128x1024x64.ReducesTo [0, 1, 2] S_
  bcast_S_S128x1024x512 : S_.BroadcastsInDim S128x1024x512 (![] : Fin 0 → Fin S128x1024x512.rank)
  reducesTo_S128x1024x512_S_d0_1_2 : S128x1024x512.ReducesTo [0, 1, 2] S_

variable [Facts]

def fn_part1 {F : FTy → Type} [FloatOps F] (main_v13 : IVec S_ 1) (main_v16 : IVec S128x1024x512 1) : IVec S_ 1 :=
  let main_c_5 : IVec S_ 1 := constantI S_ 1 1#1
  let main_v17 : IVec S_ 1 := (fun x v => Host.reduce IntOp.andi x v reducesTo_S128x1024x512_S_d0_1_2 h_S_) main_v16 main_c_5
  let main_v18 : IVec S_ 1 := andi main_v13 main_v17
  main_v18

def fn {F : FTy → Type} [FloatOps F] (main_arg0 : FVec F S128x512x64 .f32) (main_arg1 : FVec F S128x1024x64 .f32) (main_arg2 : FVec F S128x1024x512 .f32) (main_arg3 : FVec F S128x1024x512 .f32) (main_arg4 : IVec S128x20x1 32) : IVec S_ 1 :=
  let main_v0 : FVec F S128x512x64 .f32 := Host.absf main_arg0
  let main_cst : FVec F S_ .f32 := constant S_ .f32 0x7F800000#32
  let main_v1 : FVec F S128x512x64 .f32 := broadcastInDim S128x512x64 ![] bcast_S_S128x512x64 main_cst
  let main_v2 : IVec S128x512x64 1 := cmpf .olt main_v0 main_v1
  let main_c : IVec S_ 1 := constantI S_ 1 1#1
  let main_v3 : IVec S_ 1 := (fun x v => Host.reduce IntOp.andi x v reducesTo_S128x512x64_S_d0_1_2 h_S_) main_v2 main_c
  let main_v4 : FVec F S128x1024x64 .f32 := Host.absf main_arg1
  let main_cst_0 : FVec F S_ .f32 := constant S_ .f32 0x7F800000#32
  let main_v5 : FVec F S128x1024x64 .f32 := broadcastInDim S128x1024x64 ![] bcast_S_S128x1024x64 main_cst_0
  let main_v6 : IVec S128x1024x64 1 := cmpf .olt main_v4 main_v5
  let main_c_1 : IVec S_ 1 := constantI S_ 1 1#1
  let main_v7 : IVec S_ 1 := (fun x v => Host.reduce IntOp.andi x v reducesTo_S128x1024x64_S_d0_1_2 h_S_) main_v6 main_c_1
  let main_v8 : IVec S_ 1 := andi main_v3 main_v7
  let main_v9 : FVec F S128x1024x512 .f32 := Host.absf main_arg2
  let main_cst_2 : FVec F S_ .f32 := constant S_ .f32 0x7F800000#32
  let main_v10 : FVec F S128x1024x512 .f32 := broadcastInDim S128x1024x512 ![] bcast_S_S128x1024x512 main_cst_2
  let main_v11 : IVec S128x1024x512 1 := cmpf .olt main_v9 main_v10
  let main_c_3 : IVec S_ 1 := constantI S_ 1 1#1
  let main_v12 : IVec S_ 1 := (fun x v => Host.reduce IntOp.andi x v reducesTo_S128x1024x512_S_d0_1_2 h_S_) main_v11 main_c_3
  let main_v13 : IVec S_ 1 := andi main_v8 main_v12
  let main_v14 : FVec F S128x1024x512 .f32 := Host.absf main_arg3
  let main_cst_4 : FVec F S_ .f32 := constant S_ .f32 0x7F800000#32
  let main_v15 : FVec F S128x1024x512 .f32 := broadcastInDim S128x1024x512 ![] bcast_S_S128x1024x512 main_cst_4
  let main_v16 : IVec S128x1024x512 1 := cmpf .olt main_v14 main_v15
  fn_part1 (F := F) main_v13 main_v16
-- ==== Kernel.lean ====
abbrev S128x512x64 : Shape := ⟨3, ![128, 512, 64]⟩
abbrev S128x1024x64 : Shape := ⟨3, ![128, 1024, 64]⟩
abbrev S128x1024x512 : Shape := ⟨3, ![128, 1024, 512]⟩
abbrev S128x20x1 : Shape := ⟨3, ![128, 20, 1]⟩
abbrev S128x20 : Shape := ⟨2, ![128, 20]⟩
abbrev S1024 : Shape := ⟨1, ![1024]⟩
abbrev S1x1x1024 : Shape := ⟨3, ![1, 1, 1024]⟩
abbrev S128x20x1024 : Shape := ⟨3, ![128, 20, 1024]⟩
abbrev S_ : Shape := ⟨0, ![]⟩
abbrev S128x1024 : Shape := ⟨2, ![128, 1024]⟩
abbrev S1x1024 : Shape := ⟨2, ![1, 1024]⟩
abbrev S128x1 : Shape := ⟨2, ![128, 1]⟩
abbrev S8x256x512 : Shape := ⟨3, ![8, 256, 512]⟩
abbrev S8x256 : Shape := ⟨2, ![8, 256]⟩
abbrev S8x1 : Shape := ⟨2, ![8, 1]⟩
abbrev S8x256x1 : Shape := ⟨3, ![8, 256, 1]⟩
abbrev S8 : Shape := ⟨1, ![8]⟩
abbrev S128 : Shape := ⟨1, ![128]⟩

abbrev nBuf : Space → Nat
  | .hbm => 36
  | .vmem => 11
  | .smem => 0
  | _ => 0

abbrev bufTy : (tb : Table) → Fin (tcTables nBuf tb) → BufTy
  | .hbm, ⟨0, _⟩ => ⟨S128x512x64, .f32⟩
  | .hbm, ⟨1, _⟩ => ⟨S128x1024x64, .f32⟩
  | .hbm, ⟨2, _⟩ => ⟨S128x1024x512, .f32⟩
  | .hbm, ⟨3, _⟩ => ⟨S128x1024x512, .f32⟩
  | .hbm, ⟨4, _⟩ => ⟨S128x20x1, .i32⟩
  | .hbm, ⟨5, _⟩ => ⟨S128x20, .i32⟩
  | .hbm, ⟨6, _⟩ => ⟨S1024, .i32⟩
  | .hbm, ⟨7, _⟩ => ⟨S128x20x1, .i32⟩
  | .hbm, ⟨8, _⟩ => ⟨S1x1x1024, .i32⟩
  | .hbm, ⟨9, _⟩ => ⟨S128x20x1024, .i32⟩
  | .hbm, ⟨10, _⟩ => ⟨S128x20x1024, .i32⟩
  | .hbm, ⟨11, _⟩ => ⟨S128x20x1024, .i1⟩
  | .hbm, ⟨12, _⟩ => ⟨S_, .i1⟩
  | .hbm, ⟨13, _⟩ => ⟨S128x1024, .i1⟩
  | .hbm, ⟨14, _⟩ => ⟨S128x1024, .i32⟩
  | .hbm, ⟨15, _⟩ => ⟨S_, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i1⟩
  | .hbm, ⟨24, _⟩ => ⟨S1x1024, .i1⟩
  | .hbm, ⟨25, _⟩ => ⟨S128x1024, .i1⟩
  | .hbm, ⟨26, _⟩ => ⟨S128x1024, .i1⟩
  | .hbm, ⟨27, _⟩ => ⟨S_, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S128x1, .f32⟩
  | .hbm, ⟨34, _⟩ => ⟨S128x1024, .f32⟩
  | .hbm, ⟨35, _⟩ => ⟨S128, .f32⟩
  | .local _ .vmem, ⟨0, _⟩ => ⟨S8x256x512, .f32⟩
  | .local _ .vmem, ⟨1, _⟩ => ⟨S8x256x512, .f32⟩
  | .local _ .vmem, ⟨2, _⟩ => ⟨S8x256x512, .f32⟩
  | .local _ .vmem, ⟨3, _⟩ => ⟨S8x256x512, .f32⟩
  | .local _ .vmem, ⟨4, _⟩ => ⟨S8x256, .f32⟩
  | .local _ .vmem, ⟨5, _⟩ => ⟨S8x256, .f32⟩
  | .local _ .vmem, ⟨6, _⟩ => ⟨S8x1, .f32⟩
  | .local _ .vmem, ⟨7, _⟩ => ⟨S8x1, .f32⟩
  | .local _ .vmem, ⟨8, _⟩ => ⟨S8x256, .f32⟩
  | .local _ .vmem, ⟨9, _⟩ => ⟨S8x256, .f32⟩
  | .local _ .vmem, ⟨10, _⟩ => ⟨S8x1, .f32⟩
  | _, _ => ⟨S128x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_21 : BitVec 32 := 0#32
  let v35 : BitVec 1 := Scalar.cmpi .ne v34 c0_i32_21
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S128x20x1_S128x20 : S128x20x1.ShapeCasts S128x20
  bcast_S128x20_S128x20x1_0_1 : S128x20.BroadcastsInDim S128x20x1 (![0, 1] : Fin 2 → Fin S128x20x1.rank)
  bcast_S1024_S1x1x1024_2 : S1024.BroadcastsInDim S1x1x1024 (![2] : Fin 1 → Fin S1x1x1024.rank)
  bcast_S128x20x1_S128x20x1024_0_1_2 : S128x20x1.BroadcastsInDim S128x20x1024 (![0, 1, 2] : Fin 3 → Fin S128x20x1024.rank)
  bcast_S1x1x1024_S128x20x1024_0_1_2 : S1x1x1024.BroadcastsInDim S128x20x1024 (![0, 1, 2] : Fin 3 → Fin S128x20x1024.rank)
  reducesTo_S128x20x1024_S128x1024_d1 : S128x20x1024.ReducesTo [1] S128x1024
  h_S_ : 0 < S_.numel
  natLt_1_32 : 1 < 32
  reducesTo_S128x1024_S1024_d0 : S128x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x256x512_S8x256x512_0_0_0 : ∀ a, (![0, 0, 0] : Fin 3 → Nat) a + S8x256x512.size a ≤ S8x256x512.size a
  h_S8x256x512 : 0 < S8x256x512.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1 : S8x256.ShapeCasts S8x256x1
  broadcasts_S8x256x1_S8x256x512 : S8x256x1.Broadcasts S8x256x512
  reduces_S8x256x512_S8x256 : S8x256x512.Reduces [2] S8x256
  reduces_S8x256_S8 : S8x256.Reduces [1] S8
  shapeCasts_S8_S8x1 : S8.ShapeCasts S8x1
  shapeCasts_S128x1_S128 : S128x1.ShapeCasts S128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S128x1024x512.size a
  hwx0_0 : ∀ i : grid0.Coords, EltTy.bits .f32 = 32 ∨ (Rect.block (s := S128x1024x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S128x1024x512.size a
  hwx0_1 : ∀ i : grid0.Coords, EltTy.bits .f32 = 32 ∨ (Rect.block (s := S128x1024x512) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S128x1024.size a
  hwx0_2 : ∀ i : grid0.Coords, EltTy.bits .f32 = 32 ∨ (Rect.block (s := S128x1024) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S128x1.size a
  hwx0_3 : ∀ i : grid0.Coords, EltTy.bits .f32 = 32 ∨ (Rect.block (s := S128x1) S8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S128x1024.size a
  hwx0_4 : ∀ i : grid0.Coords, EltTy.bits .f32 = 32 ∨ (Rect.block (s := S128x1024) S8x256.size (cc0_transform_4 i) (hinb0_4 i)).WholeWords (EltTy.packing .f32)

variable [Facts₀]

abbrev win0_0 : Pipeline.Window sig grid0 :=
  Pipeline.Window.ofSpec (Memref.whole main_arg3) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S8x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

class Facts : Prop extends Facts₀ where

variable [Facts]
-- ==== ReferenceIdeal.lean ====
abbrev S128x512x64 : Shape := ⟨3, ![128, 512, 64]⟩
abbrev S128x1024x64 : Shape := ⟨3, ![128, 1024, 64]⟩
abbrev S128x1024x512 : Shape := ⟨3, ![128, 1024, 512]⟩
abbrev S128x20x1 : Shape := ⟨3, ![128, 20, 1]⟩
abbrev S128x20 : Shape := ⟨2, ![128, 20]⟩
abbrev S1024 : Shape := ⟨1, ![1024]⟩
abbrev S1x1x1024 : Shape := ⟨3, ![1, 1, 1024]⟩
abbrev S128x20x1024 : Shape := ⟨3, ![128, 20, 1024]⟩
abbrev S_ : Shape := ⟨0, ![]⟩
abbrev S128x1024 : Shape := ⟨2, ![128, 1024]⟩
abbrev S1x1024 : Shape := ⟨2, ![1, 1024]⟩
abbrev S128x1024x1 : Shape := ⟨3, ![128, 1024, 1]⟩
abbrev S128 : Shape := ⟨1, ![128]⟩

abbrev nBuf : Space → Nat
  | .hbm => 61
  | .vmem => 0
  | .smem => 0
  | _ => 0

abbrev bufTy : (tb : Table) → Fin (tcTables nBuf tb) → BufTy
  | .hbm, ⟨0, _⟩ => ⟨S128x512x64, .f32⟩
  | .hbm, ⟨1, _⟩ => ⟨S128x1024x64, .f32⟩
  | .hbm, ⟨2, _⟩ => ⟨S128x1024x512, .f32⟩
  | .hbm, ⟨3, _⟩ => ⟨S128x1024x512, .f32⟩
  | .hbm, ⟨4, _⟩ => ⟨S128x20x1, .i32⟩
  | .hbm, ⟨5, _⟩ => ⟨S128x20, .i32⟩
  | .hbm, ⟨6, _⟩ => ⟨S128x20x1, .i32⟩
  | .hbm, ⟨7, _⟩ => ⟨S1024, .i32⟩
  | .hbm, ⟨8, _⟩ => ⟨S1x1x1024, .i32⟩
  | .hbm, ⟨9, _⟩ => ⟨S128x20x1024, .i32⟩
  | .hbm, ⟨10, _⟩ => ⟨S128x20x1024, .i32⟩
  | .hbm, ⟨11, _⟩ => ⟨S128x20x1024, .i1⟩
  | .hbm, ⟨12, _⟩ => ⟨S_, .i1⟩
  | .hbm, ⟨13, _⟩ => ⟨S128x1024, .i1⟩
  | .hbm, ⟨14, _⟩ => ⟨S128x1024, .i32⟩
  | .hbm, ⟨15, _⟩ => ⟨S_, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i1⟩
  | .hbm, ⟨24, _⟩ => ⟨S1x1024, .i1⟩
  | .hbm, ⟨25, _⟩ => ⟨S128x1024, .i1⟩
  | .hbm, ⟨26, _⟩ => ⟨S128x1024, .i1⟩
  | .hbm, ⟨27, _⟩ => ⟨S128x1024x1, .i1⟩
  | .hbm, ⟨28, _⟩ => ⟨S_, .f32⟩
  | .hbm, ⟨29, _⟩ => ⟨S_, .f32⟩
  | .hbm, ⟨30, _⟩ => ⟨S128x1024x1, .f32⟩
  | .hbm, ⟨31, _⟩ => ⟨S128x1024x1, .f32⟩
  | .hbm, ⟨32, _⟩ => ⟨S128x1024x1, .f32⟩
  | .hbm, ⟨33, _⟩ => ⟨S128x1024x1, .f32⟩
  | .hbm, ⟨34, _⟩ => ⟨S128x1024x512, .f32⟩
  | .hbm, ⟨35, _⟩ => ⟨S128x1024x512, .f32⟩
  | .hbm, ⟨36, _⟩ => ⟨S128x1024x512, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128x1024x512, .f32⟩
  | .hbm, ⟨44, _⟩ => ⟨S128x1024x512, .i1⟩
  | .hbm, ⟨45, _⟩ => ⟨S_, .f32⟩
  | .hbm, ⟨46, _⟩ => ⟨S128x1024x512, .f32⟩
  | .hbm, ⟨47, _⟩ => ⟨S128x1024x512, .i1⟩
  | .hbm, ⟨48, _⟩ => ⟨S_, .f32⟩
  | .hbm, ⟨49, _⟩ => ⟨S_, .f32⟩
  | .hbm, ⟨50, _⟩ => ⟨S128x1024x512, .f32⟩
  | .hbm, ⟨51, _⟩ => ⟨S128x1024x512, .f32⟩
  | .hbm, ⟨52, _⟩ => ⟨S128x1024x512, .f32⟩
  | .hbm, ⟨53, _⟩ => ⟨S128x1024x512, .f32⟩
  | .hbm, ⟨54, _⟩ => ⟨S_, .f32⟩
  | .hbm, ⟨55, _⟩ => ⟨S_, .f32⟩
  | .hbm, ⟨56, _⟩ => ⟨S128x1024x512, .f32⟩
  | .hbm, ⟨57, _⟩ => ⟨S128x1024x512, .f32⟩
  | .hbm, ⟨58, _⟩ => ⟨S_, .f32⟩
  | .hbm, ⟨59, _⟩ => ⟨S128x1024, .f32⟩
  | .hbm, ⟨60, _⟩ => ⟨S128x1024, .f32⟩
  | _, _ => ⟨S128x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_call1_v0 : Ref sig .tc := ⟨.hbm, 49, rfl⟩
abbrev main_call1_v1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_call2_v0 : Ref sig .tc := ⟨.hbm, 55, rfl⟩
abbrev main_call2_v1 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]

class Facts₀ : Prop where
  shapeCasts_S128x20x1_S128x20 : S128x20x1.ShapeCasts S128x20
  bcast_S128x20_S128x20x1_0_1 : S128x20.BroadcastsInDim S128x20x1 (![0, 1] : Fin 2 → Fin S128x20x1.rank)
  bcast_S1024_S1x1x1024_2 : S1024.BroadcastsInDim S1x1x1024 (![2] : Fin 1 → Fin S1x1x1024.rank)
  bcast_S128x20x1_S128x20x1024_0_1_2 : S128x20x1.BroadcastsInDim S128x20x1024 (![0, 1, 2] : Fin 3 → Fin S128x20x1024.rank)
  bcast_S1x1x1024_S128x20x1024_0_1_2 : S1x1x1024.BroadcastsInDim S128x20x1024 (![0, 1, 2] : Fin 3 → Fin S128x20x1024.rank)
  reducesTo_S128x20x1024_S128x1024_d1 : S128x20x1024.ReducesTo [1] S128x1024
  h_S_ : 0 < S_.numel
  natLt_1_32 : 1 < 32
  reducesTo_S128x1024_S1024_d0 : S128x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S128x1024_S128x1024x1_0_1 : S128x1024.BroadcastsInDim S128x1024x1 (![0, 1] : Fin 2 → Fin S128x1024x1.rank)
  bcast_S_S128x1024x1 : S_.BroadcastsInDim S128x1024x1 (![] : Fin 0 → Fin S128x1024x1.rank)
  bcast_S128x1024x1_S128x1024x512_0_1_2 : S128x1024x1.BroadcastsInDim S128x1024x512 (![0, 1, 2] : Fin 3 → Fin S128x1024x512.rank)
  reducesTo_S128x1024x512_S128_d1_2 : S128x1024x512.ReducesTo [1, 2] S128
  bcast_S_S128 : S_.BroadcastsInDim S128 (![] : Fin 0 → Fin S128.rank)
  bcast_S_S128x1024x512 : S_.BroadcastsInDim S128x1024x512 (![] : Fin 0 → Fin S128x1024x512.rank)
  reducesTo_S128x1024x512_S128x1024_d2 : S128x1024x512.ReducesTo [2] S128x1024

variable [Facts₀]

class Facts : Prop extends Facts₀ where

variable [Facts]
-- ==== Proof.Pieces.lean ====
/-
  What each case of the body leaves in the accumulator and in the two output blocks, as the stored values of the
  blocks it loaded: the body's stores each cover their whole buffer, so a buffer ends at the value of its last store,
  and a load that follows a store of the same buffer reads that store's value back.

  * first point of a group (the accumulator is reset, then stepped): the accumulator ends at the step of the reset value;
  * a later point: the accumulator ends at the step of what the point before left;
  * the last point of a group also stores the loss block: the scaling of the accumulator it has just stepped;
  * every point stores the entropy block of the probabilities' block.
-/
import proofs.«135492_j17626545783502_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a group's first point the accumulator is reset and then stepped once. -/
theorem scratch_A (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x256 .f32) (harg6 : arg6.IsWhole) (arg7 : Memref sig .tc .vmem S8x1 .f32) (harg7 : arg7.IsWhole) (hc0 : cond0_0 i) (hc1 : ¬cond0_1 i)
    (x0 : Vec F S8x256x512 .f32) (x1 : Vec F S8x256x512 .f32) (x2 : Vec F S8x256 .f32) :
    sout0_A_0 c i arg2 harg2 arg3 harg3 arg4 harg4 arg5 harg5 arg6 harg6 arg7 harg7 hc0 hc1 x0 x1 x2 = k0_pay3 x0 x2 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg4.read_unread, harg7.read_unread,
    View.ld_unit_zero (S := S8x256x512) hz3, View.ld_unit_zero (S := S8x256) hz2, View.ld_unit_zero (S := S8x1) hz2]

/-- At a middle point the accumulator the point before left is stepped once. -/
theorem scratch_B (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x256 .f32) (harg6 : arg6.IsWhole) (arg7 : Memref sig .tc .vmem S8x1 .f32) (harg7 : arg7.IsWhole) (hc0 : ¬cond0_0 i) (hc1 : ¬cond0_1 i)
    (x0 : Vec F S8x256x512 .f32) (x1 : Vec F S8x256x512 .f32) (x2 : Vec F S8x256 .f32) (xs0 : Vec F S8x1 .f32) :
    sout0_B_0 c i arg2 harg2 arg3 harg3 arg4 harg4 arg5 harg5 arg6 harg6 arg7 harg7 hc0 hc1 x0 x1 x2 xs0 = k0_pay3 x0 x2 xs0 := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg2.read_unread, harg3.read_unread, harg4.read_unread, harg7.read_unread,
    View.ld_unit_zero (S := S8x256x512) hz3, View.ld_unit_zero (S := S8x256) hz2, View.ld_unit_zero (S := S8x1) hz2]

/-- At a group's last point the accumulator the point before left is stepped once. -/
theorem scratch_C (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x256 .f32) (harg6 : arg6.IsWhole) (arg7 : Memref sig .tc .vmem S8x1 .f32) (harg7 : arg7.IsWhole) (hc0 : ¬cond0_0 i) (hc1 : cond0_1 i)
    (x0 : Vec F S8x256x512 .f32) (x1 : Vec F S8x256x512 .f32) (x2 : Vec F S8x256 .f32) (xs0 : Vec F S8x1 .f32) :
    sout0_C_0 c i arg2 harg2 arg3 harg3 arg4 harg4 arg5 harg5 arg6 harg6 arg7 harg7 hc0 hc1 x0 x1 x2 xs0 = k0_pay3 x0 x2 xs0 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg2.read_unread, harg3.read_unread, harg4.read_unread, harg7.read_unread,
    View.ld_unit_zero (S := S8x256x512) hz3, View.ld_unit_zero (S := S8x256) hz2, View.ld_unit_zero (S := S8x1) hz2]

/-- The entropy block at a group's first point. -/
theorem ent_A (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x256 .f32) (harg6 : arg6.IsWhole) (arg7 : Memref sig .tc .vmem S8x1 .f32) (harg7 : arg7.IsWhole) (hc0 : cond0_0 i) (hc1 : ¬cond0_1 i)
    (x0 : Vec F S8x256x512 .f32) (x1 : Vec F S8x256x512 .f32) (x2 : Vec F S8x256 .f32) :
    out0_A_4 c i arg2 harg2 arg3 harg3 arg4 harg4 arg5 harg5 arg6 harg6 arg7 harg7 hc0 hc1 x0 x1 x2 = k0_pay4 x1 := by
  unfold out0_A_4
  rw [View.read_writes_eq_canon _ _ _ (cover0_A_4 c i arg2 harg2 arg3 harg3 arg4 harg4 arg5 harg5 arg6 harg6 arg7 harg7 hc0 hc1 x0 x1 x2)]
  unfold kernelRun0_A
  dsimp only
  sl_unfold_words
  rw [View.canon_unit_zero hz2]
  simp only [View.readAt_eq_ld, harg2.read_unread, harg3.read_unread, harg4.read_unread, harg7.read_unread,
    View.ld_unit_zero (S := S8x256x512) hz3, View.ld_unit_zero (S := S8x256) hz2, View.ld_unit_zero (S := S8x1) hz2]

/-- The entropy block at a middle point. -/
theorem ent_B (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x256 .f32) (harg6 : arg6.IsWhole) (arg7 : Memref sig .tc .vmem S8x1 .f32) (harg7 : arg7.IsWhole) (hc0 : ¬cond0_0 i) (hc1 : ¬cond0_1 i)
    (x0 : Vec F S8x256x512 .f32) (x1 : Vec F S8x256x512 .f32) (x2 : Vec F S8x256 .f32) (xs0 : Vec F S8x1 .f32) :
    out0_B_4 c i arg2 harg2 arg3 harg3 arg4 harg4 arg5 harg5 arg6 harg6 arg7 harg7 hc0 hc1 x0 x1 x2 xs0 = k0_pay4 x1 := by
  unfold out0_B_4
  rw [View.read_writes_eq_canon _ _ _ (cover0_B_4 c i arg2 harg2 arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg2.read_unread, harg3.read_unread, harg4.read_unread, harg7.read_unread,
    View.ld_unit_zero (S := S8x256x512) hz3, View.ld_unit_zero (S := S8x256) hz2, View.ld_unit_zero (S := S8x1) hz2]

/-- The entropy block at a group's last point. -/
theorem ent_C (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x256 .f32) (harg6 : arg6.IsWhole) (arg7 : Memref sig .tc .vmem S8x1 .f32) (harg7 : arg7.IsWhole) (hc0 : ¬cond0_0 i) (hc1 : cond0_1 i)
    (x0 : Vec F S8x256x512 .f32) (x1 : Vec F S8x256x512 .f32) (x2 : Vec F S8x256 .f32) (xs0 : Vec F S8x1 .f32) :
    out0_C_4 c i arg2 harg2 arg3 harg3 arg4 harg4 arg5 harg5 arg6 harg6 arg7 harg7 hc0 hc1 x0 x1 x2 xs0 = k0_pay4 x1 := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg2.read_unread, harg3.read_unread, harg4.read_unread, harg7.read_unread,
    View.ld_unit_zero (S := S8x256x512) hz3, View.ld_unit_zero (S := S8x256) hz2, View.ld_unit_zero (S := S8x1) hz2]

/-- The loss block at a group's last point: the scaling of the accumulator just stepped, read back. -/
theorem loss_C (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x256 .f32) (harg6 : arg6.IsWhole) (arg7 : Memref sig .tc .vmem S8x1 .f32) (harg7 : arg7.IsWhole) (hc0 : ¬cond0_0 i) (hc1 : cond0_1 i)
    (x0 : Vec F S8x256x512 .f32) (x1 : Vec F S8x256x512 .f32) (x2 : Vec F S8x256 .f32) (xs0 : Vec F S8x1 .f32) :
    out0_C_3 c i arg2 harg2 arg3 harg3 arg4 harg4 arg5 harg5 arg6 harg6 arg7 harg7 hc0 hc1 x0 x1 x2 xs0 = k0_pay1 (k0_pay3 x0 x2 xs0) := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz2, View.readCov_unit_zero (S := S8x1) _ hz2]
  simp only [View.readAt_eq_ld, harg2.read_unread, harg3.read_unread, harg4.read_unread, harg7.read_unread,
    View.ld_unit_zero (S := S8x256x512) hz3, View.ld_unit_zero (S := S8x256) hz2, View.ld_unit_zero (S := S8x1) hz2]

end Cert.KernelIdeal.Pieces

end
-- ==== Proof.LibGroups.lean ====
/-
  A matrix whose columns are cut into equal groups, read by coordinates.

  An `[a, n]` matrix with `n = b · c` columns viewed as `[a, b, c]` keeps its row-major order, so column
  `g · c + l` of row `p` is entry `(p, g, l)` of the grouped view, in both directions. A per-group quantity is a
  `[a, b]` matrix; giving it a trailing axis of extent one changes no position, and broadcasting that axis over the
  `c` members of a group reads, at `(p, g, l)`, the group's one entry `(p, g, 0)`. General in the extents.
-/
import Idealize.ShloMosaic.Lib.Pipeline.Value
import Idealize.ShloMosaic.Lib.ValueIdx

namespace Cert.LibGroups

open Idealize.ShloMosaic Idealize.ShloMosaic.ValueIdx

variable {α : Type}

/-- An `[a, n]` matrix cast to `[a, b, c]` reads, at `(p, g, l)`, the operand at `(p, col)` with
    `col = g · c + l`: both have row-major position `p · n + col` when `n = b · c`. -/
theorem shapeCast_an_abc_apply {a b c n : ℕ} (hn : n = b * c) (X : (⟨2, ![a, n]⟩ : Shape).Idx → α)
    (h : (⟨2, ![a, n]⟩ : Shape).ShapeCasts ⟨3, ![a, b, c]⟩) (p : Fin a) (g : Fin b) (l : Fin c) (col : Fin n)
    (hcol : col.val = g.val * c + l.val) : shapeCast ⟨3, ![a, b, c]⟩ X h (ix3 p g l) = X (ix2 p col) :=
  shapeCast_apply X h _ _ (by
    rw [Shape.rowMajor_val_two, Shape.rowMajor_val_three]
    show p.val * n + col.val = (p.val * b + g.val) * c + l.val
    rw [hcol, hn, Nat.add_mul, Nat.mul_assoc, Nat.add_assoc])

/-- An `[a, b, c]` array cast to `[a, n]` reads, at `(p, col)` with `col = g · c + l`, the operand at `(p, g, l)`. -/
theorem shapeCast_abc_an_apply {a b c n : ℕ} (hn : n = b * c) (Y : (⟨3, ![a, b, c]⟩ : Shape).Idx → α)
    (h : (⟨3, ![a, b, c]⟩ : Shape).ShapeCasts ⟨2, ![a, n]⟩) (p : Fin a) (g : Fin b) (l : Fin c) (col : Fin n)
    (hcol : col.val = g.val * c + l.val) : shapeCast ⟨2, ![a, n]⟩ Y h (ix2 p col) = Y (ix3 p g l) :=
  shapeCast_apply Y h _ _ (by
    rw [Shape.rowMajor_val_three, Shape.rowMajor_val_two]
    show (p.val * b + g.val) * c + l.val = p.val * n + col.val
    rw [hcol, hn, Nat.add_mul, Nat.mul_assoc, Nat.add_assoc])

/-- An `[a, b]` matrix cast to `[a, b, 1]` reads, at `(p, g, u)`, the operand at `(p, g)`: a trailing axis of
    extent one adds nothing to the row-major position. -/
theorem shapeCast_ab_ab1_apply {a b : ℕ} (X : (⟨2, ![a, b]⟩ : Shape).Idx → α)
    (h : (⟨2, ![a, b]⟩ : Shape).ShapeCasts ⟨3, ![a, b, 1]⟩) (p : Fin a) (g : Fin b) (u : Fin 1) :
    shapeCast ⟨3, ![a, b, 1]⟩ X h (ix3 p g u) = X (ix2 p g) :=
  shapeCast_apply X h _ _ (by
    have hu : u.val = 0 := by omega
    rw [Shape.rowMajor_val_two, Shape.rowMajor_val_three]
    show p.val * b + g.val = (p.val * b + g.val) * 1 + u.val
    rw [hu, Nat.mul_one, Nat.add_zero])

/-- An `[a, b, 1]` array broadcast along its unit axis to `[a, b, c]` reads, at `(p, g, l)`, the one entry
    `(p, g, 0)` of group `g` in row `p`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (g : Fin b) (l : Fin c) :
    broadcastTo ⟨3, ![a, b, c]⟩ v h (ix3 p g l) = v (ix3 p g (0 : Fin 1)) := by
  refine broadcastTo_apply v h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

end Cert.LibGroups
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibRank3Sums.lean ====
/-
  Sums over the trailing axes of a rank-3 array, and a column read as a vector, by coordinates.

  * `laneSum3_apply`: a float lane sum of an `[a, b, c]` array over its last axis from the zero pattern is, at
    `(p, q)`, the sum over `k` of the entry `(p, q, k)`.
  * `hostSum12_apply`: the host's float sum of an `[a, b, c]` array over its last TWO axes is, at `p`, the initial
    value plus the double sum over `(k, v)` of the entry `(p, k, v)`: the indices that drop to `p` are exactly the
    `(p, k, v)`, each once.
  * `hostSum2_apply`: the host's float sum of an `[a, b, c]` array over its last axis is, at `(p, q)`, the initial value
    plus the sum over `k` of the entry `(p, q, k)`.
  * `shapeCast_a1_a_apply`: an `[a, 1]` column reshaped to `[a]` has at `i` the entry `(i, 0)`.
  General in the extents; on the extended reals no finiteness is used (only that `+` commutes and associates).
-/
import Idealize.ShloMosaic.Lib.Pipeline.Value
import Idealize.ShloMosaic.Lib.ValueIdx
import Idealize.ShloMosaic.PureOps.Ideal.Laws

namespace Cert.LibRank3Sums

open Idealize.ShloMosaic Idealize.ShloMosaic.ValueIdx

variable {α : Type}

/-- An `[a, 1]` column cast to `[a]` reads, at `i`, the operand at `(i, u)`: both have row-major position `i`. -/
theorem shapeCast_a1_a_apply {a : ℕ} (X : (⟨2, ![a, 1]⟩ : Shape).Idx → α)
    (h : (⟨2, ![a, 1]⟩ : Shape).ShapeCasts ⟨1, ![a]⟩) (i : Fin a) (u : Fin 1) :
    shapeCast ⟨1, ![a]⟩ X h (ix1 i) = X (ix2 i u) :=
  shapeCast_apply X h _ _ (by
    have hu : u.val = 0 := by omega
    rw [Shape.rowMajor_val_two, Shape.rowMajor_val_one]
    show i.val * 1 + u.val = i.val
    rw [hu, Nat.mul_one, Nat.add_zero])

/-- A float lane sum of an `[a, b, c]` array over its last axis from the zero pattern, read at `(p, q)`, is the sum
    over the lane coordinate `k` of the entry `(p, q, k)`. -/
theorem laneSum3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src _ h hφ hacc (ix2 p q)).trans ?_
  refine Finset.sum_congr rfl fun k _ => congrArg src ?_
  funext d
  apply Fin.ext
  match d with
  | ⟨0, _⟩ => rfl
  | ⟨1, _⟩ => rfl
  | ⟨2, _⟩ => rfl

/-- The host's float sum over the last axis of an `[a, b, c]` array, read at `(p, q)`: the initial value plus the sum
    over `k` of the entry `(p, q, k)`. -/
theorem hostSum2_apply {a b c : ℕ} (h' : (⟨3, ![a, b, c]⟩ : Shape).ReducesTo [2] ⟨2, ![a, b]⟩)
    (x : (⟨3, ![a, b, c]⟩ : Shape).Idx → EReal) (init : EReal) (p : Fin a) (q : Fin b) :
    Ideal.hostReduceAdd h' x init (ix2 p q) = init + ∑ k : Fin c, x (ix3 p q k) := by
  have h : (⟨3, ![a, b, c]⟩ : Shape).Reduces [2] ⟨2, ![a, b]⟩ := ⟨h'.1, Nat.two_pos, h'.2⟩
  rw [Ideal.hostReduceAdd_single h' h]
  refine congrArg (init + ·) (Finset.sum_congr rfl fun k _ => congrArg x ?_)
  funext d
  apply Fin.ext
  match d with
  | ⟨0, _⟩ => rfl
  | ⟨1, _⟩ => rfl
  | ⟨2, _⟩ => rfl

/-- The indices `(p, k, v)` of row `p`, as an embedding of the pairs `(k, v)`. -/
def rowEmb {a b c : ℕ} (p : Fin a) : Fin b × Fin c ↪ (⟨3, ![a, b, c]⟩ : Shape).Idx :=
  ⟨fun kv => ix3 p kv.1 kv.2, fun kv kv' e => by
    have e1 : kv.1 = kv'.1 := congrFun e 1
    have e2 : kv.2 = kv'.2 := congrFun e 2
    exact Prod.ext e1 e2⟩

/-- The host's float sum over the last two axes of an `[a, b, c]` array, read at `p`: the initial value plus the
    double sum over `(k, v)` of the entry `(p, k, v)`. -/
theorem hostSum12_apply {a b c : ℕ} (h' : (⟨3, ![a, b, c]⟩ : Shape).ReducesTo [1, 2] ⟨1, ![a]⟩)
    (x : (⟨3, ![a, b, c]⟩ : Shape).Idx → EReal) (init : EReal) (p : Fin a) :
    Ideal.hostReduceAdd h' x init (ix1 p) = init + ∑ k : Fin b, ∑ v : Fin c, x (ix3 p k v) := by
  unfold Ideal.hostReduceAdd
  have hset : (Finset.univ.filter fun i : (⟨3, ![a, b, c]⟩ : Shape).Idx => h'.drop i = ix1 p)
      = Finset.univ.map (rowEmb (b := b) (c := c) p) := by
    ext i
    simp only [Finset.mem_filter, Finset.mem_univ, true_and, Finset.mem_map, rowEmb, Function.Embedding.coeFn_mk]
    constructor
    · intro hi
      have e : (h'.drop i 0).val = (i 0).val :=
        Shape.ReducesTo.drop_apply_val_of_eq h' i 0 0 (show 0 < 1 from Nat.one_pos) rfl
      have h0 : (i 0).val = p.val := e.symm.trans (congrArg (fun j : (⟨1, ![a]⟩ : Shape).Idx => (j 0).val) hi)
      refine ⟨((i 1 : Fin b), (i 2 : Fin c)), ?_⟩
      funext d
      apply Fin.ext
      match d with
      | ⟨0, _⟩ => exact h0.symm
      | ⟨1, _⟩ => rfl
      | ⟨2, _⟩ => rfl
    · rintro ⟨kv, rfl⟩
      funext d
      apply Fin.ext
      match d with
      | ⟨0, _⟩ => exact Shape.ReducesTo.drop_apply_val_of_eq h' _ 0 0 (show 0 < 1 from Nat.one_pos) rfl
  rw [hset, Finset.sum_map, Fintype.sum_prod_type]
  rfl

end Cert.LibRank3Sums
-- ==== Proof.LibBlockedSum.lean ====
/-
  Sums cut into consecutive blocks, for any extents: what a matrix product accumulated block by block along
  its contraction axis adds up to.

  * `sum_blocks`: a sum over `Fin (n * b)` is the sum over `n` consecutive blocks of `b` consecutive terms,
    block `p` holding the positions `p * b + q`, `q < b`. In any commutative additive monoid — so also on the
    extended reals, where it needs no finiteness: only commutativity and associativity of `+` are used.
  * `accum_eq_sum`: an accumulator that starts at zero and adds one summand per step holds, after `n` steps,
    the sum of the first `n` summands.
  * `accum_blocks`: the two together — accumulating the `n` block sums from zero gives the whole sum.
-/
import Mathlib.Algebra.BigOperators.Fin
import Mathlib.Algebra.BigOperators.Intervals
import Mathlib.Logic.Equiv.Fin.Basic

namespace Cert.LibBlockedSum

open Finset

variable {M : Type*} [AddCommMonoid M]

/-- A sum over `Fin (n * b)` cut into `n` consecutive blocks of `b`: position `p * b + q` is term `q` of block `p`. -/
theorem sum_blocks (n b : ℕ) (f : ℕ → M) :
    ∑ k : Fin (n * b), f k.val = ∑ p : Fin n, ∑ q : Fin b, f (p.val * b + q.val) := by
  rw [← Fintype.sum_prod_type' (f := fun (p : Fin n) (q : Fin b) => f (p.val * b + q.val))]
  refine (Fintype.sum_equiv finProdFinEquiv _ _ (fun x => ?_)).symm
  obtain ⟨p, q⟩ := x
  show f (p.val * b + q.val) = f ((finProdFinEquiv (p, q)).val)
  congr 1
  simp [finProdFinEquiv, Nat.mul_comm, Nat.add_comm]

/-- The accumulator after `j` steps: zero, then one summand added per step. -/
def accum (s : ℕ → M) : ℕ → M
  | 0 => 0
  | j + 1 => accum s j + s j

/-- After `n` steps the accumulator holds the sum of the first `n` summands. -/
theorem accum_eq_sum (s : ℕ → M) (n : ℕ) : accum s n = ∑ j ∈ range n, s j := by
  induction n with
  | zero => simp [accum]
  | succ n ih => rw [accum, ih, Finset.sum_range_succ]

/-- Accumulating the `n` block sums of a sum over `Fin (n * b)` from zero gives the whole sum. -/
theorem accum_blocks (n b : ℕ) (f : ℕ → M) :
    accum (fun p => ∑ q : Fin b, f (p * b + q.val)) n = ∑ k : Fin (n * b), f k.val := by
  rw [accum_eq_sum, sum_blocks, Finset.sum_range]

end Cert.LibBlockedSum
-- ==== Proof.Spec.lean ====
/-
  The two results as functions of the argument arrays, on the extended reals.

  `x` is the array of logits and `p` the array of probabilities, both `[128, 1024, 512]` (example, token, vocabulary
  entry); `y` is the `[128, 1024]` array of per-token targets. The loss of example `a` is the sum over all tokens and
  vocabulary entries of the squared deviation `(x − y)²`, scaled by `2⁻¹⁹ = 1 / (1024 · 512)`; the entropy of token
  `(a, b)` is `−∑ᵥ p log p` with the convention `0 · log 0 = 0` spelt as two selections on `p > 0`.
  Entries are addressed by natural coordinates (zero outside the array), so that a block's entry `(r, q, v)` at
  block position `(g, j)` is simply entry `(8g + r, 256j + q, v)`.
-/
import Idealize.ShloMosaic.PureOps.Ideal
import Idealize.ShloMosaic.Lib.ValueIdx
import proofs.«135492_j17626545783502_2_alg».proof.Proof.LibBlockedSum

noncomputable section

namespace Cert.Spec

open Idealize.ShloMosaic Idealize.ShloMosaic.ValueIdx

/-- The shapes of the arrays: logits and probabilities; targets and entropies. -/
abbrev A3 : Shape := ⟨3, ![128, 1024, 512]⟩
abbrev A2 : Shape := ⟨2, ![128, 1024]⟩

/-- Entry `(a, b, c)` of a `[128, 1024, 512]` array by natural coordinates; zero outside the array. -/
def at3 (x : A3.Idx → EReal) (a b c : ℕ) : EReal :=
  if h : a < 128 ∧ b < 1024 ∧ c < 512 then x (ix3 ⟨a, h.1⟩ ⟨b, h.2.1⟩ ⟨c, h.2.2⟩) else 0

/-- Entry `(a, b)` of a `[128, 1024]` array by natural coordinates; zero outside the array. -/
def at2 (y : A2.Idx → EReal) (a b : ℕ) : EReal :=
  if h : a < 128 ∧ b < 1024 then y (ix2 ⟨a, h.1⟩ ⟨b, h.2⟩) else 0

theorem at3_mk (x : A3.Idx → EReal) (a : Fin 128) (b : Fin 1024) (c : Fin 512) :
    at3 x a.val b.val c.val = x (ix3 a b c) := by
  unfold at3; rw [dif_pos ⟨a.isLt, b.isLt, c.isLt⟩]

theorem at2_mk (y : A2.Idx → EReal) (a : Fin 128) (b : Fin 1024) : at2 y a.val b.val = y (ix2 a b) := by
  unfold at2; rw [dif_pos ⟨a.isLt, b.isLt⟩]

/-- The squared deviation of logit `(a, b, c)` from the target of token `(a, b)`. -/
def sqDev (x : A3.Idx → EReal) (y : A2.Idx → EReal) (a b c : ℕ) : EReal :=
  (at3 x a b c - at2 y a b) * (at3 x a b c - at2 y a b)

/-- Example `a`'s sum of squared deviations over all 1024 tokens and 512 vocabulary entries. -/
def sqSum (x : A3.Idx → EReal) (y : A2.Idx → EReal) (a : ℕ) : EReal :=
  ∑ k : Fin 1024, ∑ v : Fin 512, sqDev x y a k.val v.val

/-- The part of that sum over the `j`-th run of 256 consecutive tokens. -/
def tileSum (x : A3.Idx → EReal) (y : A2.Idx → EReal) (a j : ℕ) : EReal :=
  ∑ q : Fin 256, ∑ v : Fin 512, sqDev x y a (j * 256 + q.val) v.val

/-- The whole sum is the sum of its four runs of 256 tokens: addition on the extended reals commutes and associates,
    so no finiteness is needed to regroup. -/
theorem sqSum_eq_tiles (x : A3.Idx → EReal) (y : A2.Idx → EReal) (a : ℕ) :
    sqSum x y a = ∑ j ∈ Finset.range 4, tileSum x y a j := by
  unfold sqSum tileSum
  rw [Finset.sum_range]
  exact Cert.LibBlockedSum.sum_blocks 4 256 (fun k => ∑ v : Fin 512, sqDev x y a k v.val)

/-- The mean squared deviation of example `a`: the sum scaled by the word of `2⁻¹⁹`. -/
def lossAt (x : A3.Idx → EReal) (y : A2.Idx → EReal) (a : ℕ) : EReal :=
  sqSum x y a * Ideal.ofBits .f32 0x36000000#32

/-- One term of the entropy: `p · log p` where `p > 0` (the logarithm taken of `p` there and of `1` elsewhere), and
    `0` elsewhere. -/
def plogp (p : EReal) : EReal :=
  Scalar.select (Ideal.cmp .ogt p (Ideal.ofBits .f32 0x00000000#32))
    (p * Ideal.log (Scalar.select (Ideal.cmp .ogt p (Ideal.ofBits .f32 0x00000000#32)) p (Ideal.ofBits .f32 0x3F800000#32)))
    (Ideal.ofBits .f32 0x00000000#32)

/-- The entropy of token `(a, b)`'s distribution over the vocabulary. -/
def entAt (p : A3.Idx → EReal) (a b : ℕ) : EReal := -(∑ v : Fin 512, plogp (at3 p a b v.val))

/-- The loss as a vector over the examples, as a column, and the entropy as a matrix over the tokens. -/
def lossArr (x : A3.Idx → EReal) (y : A2.Idx → EReal) : (⟨1, ![128]⟩ : Shape).Idx → EReal := fun j => lossAt x y (j 0).val
def lossCol (x : A3.Idx → EReal) (y : A2.Idx → EReal) : (⟨2, ![128, 1]⟩ : Shape).Idx → EReal := fun j => lossAt x y (j 0).val
def entArr (p : A3.Idx → EReal) : A2.Idx → EReal := fun j => entAt p (j 0).val (j 1).val

/-- The two scale words: `0x49000000` is `2¹⁹ = 524288` and `0x36000000` is its reciprocal `2⁻¹⁹`, both exactly. -/
theorem ofBits_two_pow_19 : Ideal.ofBits .f32 0x49000000#32 = ((524288 : ℝ) : EReal) := by
  simp [Ideal.ofBits, Ideal.ieee, -EReal.coe_mul]; norm_num

theorem ofBits_two_pow_neg_19 : Ideal.ofBits .f32 0x36000000#32 = ((1 / 524288 : ℝ) : EReal) := by
  simp [Ideal.ofBits, Ideal.ieee, -EReal.coe_mul]; norm_num

/-- Dividing by `2¹⁹` is multiplying by `2⁻¹⁹`, on every extended real. -/
theorem div_scale (s : EReal) :
    Ideal.div s (Ideal.ofBits .f32 0x49000000#32) = s * Ideal.ofBits .f32 0x36000000#32 := by
  rw [ofBits_two_pow_19, ofBits_two_pow_neg_19, Ideal.div_coe (by norm_num)]

end Cert.Spec

end
-- ==== Proof.Payloads.lean ====
/-
  The body's four stored values, read at an index on the extended reals.

  With `L` the block of logits `[8, 256, 512]`, `Y` the block of targets `[8, 256]`, `P` the block of probabilities and
  `acc` the `[8, 1]` accumulator:
  * the accumulator's new value at row `r` is `acc r + ∑_q ∑_v (L r q v − Y r q)²`: the target is first given a unit
    axis and broadcast over the vocabulary, the squares are summed over the vocabulary and then over the 256 tokens
    (two sums from zero), and the row sums are laid as a column;
  * the accumulator's reset value is `0`;
  * the loss block is the accumulator times the word of `2⁻¹⁹`;
  * the entropy block at `(r, q)` is `0 − ∑_v plogp (P r q v)`, that is `−∑_v plogp (P r q v)`.
-/
import proofs.«135492_j17626545783502_2_alg».proof.Proof.Gen.KernelIdeal.Skeleton
import proofs.«135492_j17626545783502_2_alg».proof.Proof.LibGroups
import proofs.«135492_j17626545783502_2_alg».proof.Proof.LibKeepdims
import proofs.«135492_j17626545783502_2_alg».proof.Proof.LibRank3Sums
import proofs.«135492_j17626545783502_2_alg».proof.Proof.Spec
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx
open Cert.KernelIdeal Cert.KernelIdeal.Gen

/-- The target block, given a trailing unit axis and broadcast over the vocabulary, reads at `(r, q, v)` the target
    of token `(r, q)`. -/
theorem target_bcast (Y : FVec Ideal S8x256 .f32) (h1 : S8x256.ShapeCasts S8x256) (h2 : S8x256.ShapeCasts S8x256x1)
    (h3 : S8x256x1.Broadcasts S8x256x512) (r : Fin 8) (q : Fin 256) (v : Fin 512) :
    broadcastTo S8x256x512 (shapeCast S8x256x1 (shapeCast S8x256 Y h1) h2) h3 (ix3 r q v) = Y (ix2 r q) := by
  rw [Cert.LibGroups.broadcastTo_ab1_abc_apply, Cert.LibGroups.shapeCast_ab_ab1_apply, shapeCast_self]

/-- The accumulator's new value at row `r`: what it held plus the block's sum of squared deviations of that row. -/
theorem acc_step_apply (L : FVec Ideal S8x256x512 .f32) (Y : FVec Ideal S8x256 .f32) (acc : FVec Ideal S8x1 .f32)
    (r : Fin 8) (u : Fin 1) :
    k0_pay3 (F := Ideal) L Y acc (ix2 r u)
      = acc (ix2 r u) + ∑ q : Fin 256, ∑ v : Fin 512, (L (ix3 r q v) - Y (ix2 r q)) * (L (ix3 r q v) - Y (ix2 r q)) := by
  unfold k0_pay3
  rw [shapeCast_self, addf_apply]
  refine congrArg (acc (ix2 r u) + ·) ?_
  refine (Cert.Keepdims.shapeCast_a_a1_apply _ _ r u).trans ?_
  refine (Cert.Keepdims.laneSum_apply _ _ _ _ r).trans ?_
  refine Finset.sum_congr rfl fun q _ => ?_
  refine (Cert.LibRank3Sums.laneSum3_apply _ _ _ _ r q).trans ?_
  refine Finset.sum_congr rfl fun v _ => ?_
  rw [mulf_apply, subf_apply, target_bcast]

/-- The accumulator's reset value is zero in every row. -/
theorem acc_reset_apply (r : Fin 8) (u : Fin 1) : k0_pay2 (F := Ideal) (ix2 r u) = 0 := by
  unfold k0_pay2
  rw [shapeCast_self]
  exact Ideal.ofBits_zero_f32

/-- The loss block is the accumulator scaled by the word of `2⁻¹⁹`. -/
theorem scaled_apply (acc : FVec Ideal S8x1 .f32) (r : Fin 8) (u : Fin 1) :
    k0_pay1 (F := Ideal) acc (ix2 r u) = acc (ix2 r u) * Ideal.ofBits .f32 0x36000000#32 := rfl

/-- The entropy block at `(r, q)`: minus the sum over the vocabulary of `plogp` of the probabilities. -/
theorem ent_apply (Pr : FVec Ideal S8x256x512 .f32) (r : Fin 8) (q : Fin 256) :
    k0_pay4 (F := Ideal) Pr (ix2 r q) = -(∑ v : Fin 512, Cert.Spec.plogp (Pr (ix3 r q v))) := by
  unfold k0_pay4
  rw [subf_apply, broadcast_apply]
  refine Eq.trans (congrArg₂ (· - ·) Ideal.ofBits_zero_f32 ?_) (zero_sub _)
  refine (Cert.LibRank3Sums.laneSum3_apply _ _ _ _ r q).trans ?_
  exact Finset.sum_congr rfl fun v _ => rfl

end Cert.KernelIdeal.Payload

end
-- ==== Proof.GridFacts.lean ====
/-
  The printed index maps, decided over the 64 grid points: at point `t = 4g + j` every window's block index on the
  example axis is the group `g = t / 4`; on the token axis it is the run `j = t % 4` for the logits, the
  probabilities, the targets and the entropies; it is `0` on the vocabulary axis and on the loss column's unit axis.
-/
import proofs.«135492_j17626545783502_2_alg».proof.Proof.Gen.KernelIdeal.Frame

-- each fact below is one decision over the 64 grid points, taken in turn
set_option Elab.async false

noncomputable section

namespace Cert.KernelIdeal.GridFacts

open Idealize.ShloMosaic Idealize.ShloMosaic.TcCoe Idealize.SL.Sem
open Cert.KernelIdeal Cert.KernelIdeal.Gen

theorem lt64 (t : Fin cfg0.N) : t.val < 64 := lt_of_lt_of_eq t.isLt N_0

/-- The logits' window. -/
theorem idx_logits : ∀ t : Fin cfg0.N,
    win0_0.index t (0 : Fin 3) = t.val / 4 ∧ win0_0.index t (1 : Fin 3) = t.val % 4 ∧ win0_0.index t (2 : Fin 3) = 0 :=
  (by decide +kernel : ∀ t : Fin grid0.N, _)

/-- The probabilities' window. -/
theorem idx_probs : ∀ t : Fin cfg0.N,
    win0_1.index t (0 : Fin 3) = t.val / 4 ∧ win0_1.index t (1 : Fin 3) = t.val % 4 ∧ win0_1.index t (2 : Fin 3) = 0 :=
  (by decide +kernel : ∀ t : Fin grid0.N, _)

/-- The targets' window. -/
theorem idx_targets : ∀ t : Fin cfg0.N,
    win0_2.index t (0 : Fin 2) = t.val / 4 ∧ win0_2.index t (1 : Fin 2) = t.val % 4 :=
  (by decide +kernel : ∀ t : Fin grid0.N, _)

/-- The loss column's window. -/
theorem idx_loss : ∀ t : Fin cfg0.N,
    win0_3.index t (0 : Fin 2) = t.val / 4 ∧ win0_3.index t (1 : Fin 2) = 0 :=
  (by decide +kernel : ∀ t : Fin grid0.N, _)

/-- The entropies' window. -/
theorem idx_ent : ∀ t : Fin cfg0.N,
    win0_4.index t (0 : Fin 2) = t.val / 4 ∧ win0_4.index t (1 : Fin 2) = t.val % 4 :=
  (by decide +kernel : ∀ t : Fin grid0.N, _)

end Cert.KernelIdeal.GridFacts

end
-- ==== Proof.Blocks.lean ====
/-
  What a block holds: at grid point `t = 4g + j` (`g = t / 4` the group of eight examples, `j = t % 4` the run of 256
  tokens) the entry `(r, q, v)` of the logits' and the probabilities' block is entry `(8g + r, 256j + q, v)` of the
  array, the entry `(r, q)` of the targets' and the entropies' block is entry `(8g + r, 256j + q)`, and the entry
  `(r, 0)` of the loss column's block is entry `(8g + r, 0)`. A block's coordinate on an axis is always block index ×
  block extent + the coordinate inside the block. Each reading is stated for ANY array of the window's shape.
-/
import proofs.«135492_j17626545783502_2_alg».proof.Proof.Gen.KernelIdeal.Frame
import proofs.«135492_j17626545783502_2_alg».proof.Proof.GridFacts
import proofs.«135492_j17626545783502_2_alg».proof.Proof.Spec
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GridFacts Cert.Spec

/-! ## Any array read through a window's block -/

/-- The logits' window: block `t` of any `[128, 1024, 512]` array, entry `(r, q, v)`. -/
theorem read_logits (A : A3.Idx → EReal) (t : Fin cfg0.N) (r : Fin 8) (q : Fin 256) (v : Fin 512) :
    ((cfg0.win 0).blk t).view.read (Elt Ideal) A (ix3 r q v)
      = at3 A (t.val / 4 * 8 + r.val) (t.val % 4 * 256 + q.val) v.val := by
  have hN := lt64 t
  have hr := r.isLt
  have hq := q.isLt
  obtain ⟨e0, e1, e2⟩ := idx_logits t
  have hb : t.val / 4 * 8 + r.val < 128 ∧ t.val % 4 * 256 + q.val < 1024 ∧ v.val < 512 := ⟨by omega, by omega, v.isLt⟩
  unfold at3
  rw [dif_pos hb, View.read_apply]
  show A (((cfg0.win 0).blk t).view.emb (ix3 r q v)) = A _
  refine congrArg A (funext fun a => Fin.ext ?_)
  match a with
  | ⟨0, _⟩ => show win0_0.index t (0 : Fin 3) * 8 + 1 * r.val = t.val / 4 * 8 + r.val; rw [e0]; omega
  | ⟨1, _⟩ => show win0_0.index t (1 : Fin 3) * 256 + 1 * q.val = t.val % 4 * 256 + q.val; rw [e1]; omega
  | ⟨2, _⟩ => show win0_0.index t (2 : Fin 3) * 512 + 1 * v.val = v.val; rw [e2]; omega

/-- The probabilities' window: block `t` of any `[128, 1024, 512]` array, entry `(r, q, v)`. -/
theorem read_probs (A : A3.Idx → EReal) (t : Fin cfg0.N) (r : Fin 8) (q : Fin 256) (v : Fin 512) :
    ((cfg0.win 1).blk t).view.read (Elt Ideal) A (ix3 r q v)
      = at3 A (t.val / 4 * 8 + r.val) (t.val % 4 * 256 + q.val) v.val := by
  have hN := lt64 t
  have hr := r.isLt
  have hq := q.isLt
  obtain ⟨e0, e1, e2⟩ := idx_probs t
  have hb : t.val / 4 * 8 + r.val < 128 ∧ t.val % 4 * 256 + q.val < 1024 ∧ v.val < 512 := ⟨by omega, by omega, v.isLt⟩
  unfold at3
  rw [dif_pos hb, View.read_apply]
  show A (((cfg0.win 1).blk t).view.emb (ix3 r q v)) = A _
  refine congrArg A (funext fun a => Fin.ext ?_)
  match a with
  | ⟨0, _⟩ => show win0_1.index t (0 : Fin 3) * 8 + 1 * r.val = t.val / 4 * 8 + r.val; rw [e0]; omega
  | ⟨1, _⟩ => show win0_1.index t (1 : Fin 3) * 256 + 1 * q.val = t.val % 4 * 256 + q.val; rw [e1]; omega
  | ⟨2, _⟩ => show win0_1.index t (2 : Fin 3) * 512 + 1 * v.val = v.val; rw [e2]; omega

/-- The targets' window: block `t` of any `[128, 1024]` array, entry `(r, q)`. -/
theorem read_targets (A : A2.Idx → EReal) (t : Fin cfg0.N) (r : Fin 8) (q : Fin 256) :
    ((cfg0.win 2).blk t).view.read (Elt Ideal) A (ix2 r q) = at2 A (t.val / 4 * 8 + r.val) (t.val % 4 * 256 + q.val) := by
  have hN := lt64 t
  have hr := r.isLt
  have hq := q.isLt
  obtain ⟨e0, e1⟩ := idx_targets t
  have hb : t.val / 4 * 8 + r.val < 128 ∧ t.val % 4 * 256 + q.val < 1024 := ⟨by omega, by omega⟩
  unfold at2
  rw [dif_pos hb, View.read_apply]
  show A (((cfg0.win 2).blk t).view.emb (ix2 r q)) = A _
  refine congrArg A (funext fun a => Fin.ext ?_)
  match a with
  | ⟨0, _⟩ => show win0_2.index t (0 : Fin 2) * 8 + 1 * r.val = t.val / 4 * 8 + r.val; rw [e0]; omega
  | ⟨1, _⟩ => show win0_2.index t (1 : Fin 2) * 256 + 1 * q.val = t.val % 4 * 256 + q.val; rw [e1]; omega

/-- The entropies' window: block `t` of an array given by its coordinates, entry `(r, q)`. -/
theorem read_ent (f : ℕ → ℕ → EReal) (t : Fin cfg0.N) (r : Fin 8) (q : Fin 256) :
    ((cfg0.win 4).blk t).view.read (Elt Ideal) (fun j : A2.Idx => f (j 0).val (j 1).val) (ix2 r q)
      = f (t.val / 4 * 8 + r.val) (t.val % 4 * 256 + q.val) := by
  have hN := lt64 t
  have hr := r.isLt
  have hq := q.isLt
  obtain ⟨e0, e1⟩ := idx_ent t
  have c0 : ((((cfg0.win 4).blk t).view.emb (ix2 r q)) (0 : Fin 2)).val = t.val / 4 * 8 + r.val := by
    show win0_4.index t (0 : Fin 2) * 8 + 1 * r.val = _
    rw [e0]; omega
  have c1 : ((((cfg0.win 4).blk t).view.emb (ix2 r q)) (1 : Fin 2)).val = t.val % 4 * 256 + q.val := by
    show win0_4.index t (1 : Fin 2) * 256 + 1 * q.val = _
    rw [e1]; omega
  rw [View.read_apply]
  show f ((((cfg0.win 4).blk t).view.emb (ix2 r q)) (0 : Fin 2)).val ((((cfg0.win 4).blk t).view.emb (ix2 r q)) (1 : Fin 2)).val = _
  rw [c0, c1]

/-- The loss column's window: block `t` of a column given by its row coordinate, entry `(r, 0)`. -/
theorem read_loss (f : ℕ → EReal) (t : Fin cfg0.N) (r : Fin 8) (u : Fin 1) :
    ((cfg0.win 3).blk t).view.read (Elt Ideal) (fun j : (⟨2, ![128, 1]⟩ : Shape).Idx => f (j 0).val) (ix2 r u)
      = f (t.val / 4 * 8 + r.val) := by
  have hN := lt64 t
  have hr := r.isLt
  obtain ⟨e0, -⟩ := idx_loss t
  have c0 : ((((cfg0.win 3).blk t).view.emb (ix2 r u)) (0 : Fin 2)).val = t.val / 4 * 8 + r.val := by
    show win0_3.index t (0 : Fin 2) * 8 + 1 * r.val = _
    rw [e0]; omega
  rw [View.read_apply]
  show f ((((cfg0.win 3).blk t).view.emb (ix2 r u)) (0 : Fin 2)).val = _
  rw [c0]

/-! ## The blocks the body is called with -/

variable (m : (ℓ : Loc nD τ sig) → Buf (Elt Ideal) ℓ)

/-- The logits' block at point `t`. -/
theorem logits_blk (c : Dev nD) (t : Fin cfg0.N) (r : Fin 8) (q : Fin 256) (v : Fin 512) :
    iblk m c 0 t (ix3 r q v) = at3 (V m c main_arg3) (t.val / 4 * 8 + r.val) (t.val % 4 * 256 + q.val) v.val :=
  read_logits (V m c main_arg3) t r q v

/-- The probabilities' block at point `t`. -/
theorem probs_blk (c : Dev nD) (t : Fin cfg0.N) (r : Fin 8) (q : Fin 256) (v : Fin 512) :
    iblk m c 1 t (ix3 r q v) = at3 (V m c main_arg2) (t.val / 4 * 8 + r.val) (t.val % 4 * 256 + q.val) v.val :=
  read_probs (V m c main_arg2) t r q v

/-- The targets' block at point `t`. -/
theorem targets_blk (c : Dev nD) (t : Fin cfg0.N) (r : Fin 8) (q : Fin 256) :
    iblk m c 2 t (ix2 r q) = at2 (V m c main_v19) (t.val / 4 * 8 + r.val) (t.val % 4 * 256 + q.val) :=
  read_targets (V m c main_v19) t r q

/-- So a block's sum of squared deviations of row `r` at point `t` is the `(t % 4)`-th run's part of example
    `8 (t / 4) + r`'s sum: for any block vectors `L`, `Y` that read the arrays `A`, `B` as the windows do. -/
theorem tile_eq (L : FVec Ideal S8x256x512 .f32) (Y : FVec Ideal S8x256 .f32) (A : A3.Idx → EReal) (B : A2.Idx → EReal)
    (t : Fin cfg0.N) (r : Fin 8)
    (hL : ∀ (q : Fin 256) (v : Fin 512), L (ix3 r q v) = at3 A (t.val / 4 * 8 + r.val) (t.val % 4 * 256 + q.val) v.val)
    (hY : ∀ q : Fin 256, Y (ix2 r q) = at2 B (t.val / 4 * 8 + r.val) (t.val % 4 * 256 + q.val)) :
    (∑ q : Fin 256, ∑ v : Fin 512, (L (ix3 r q v) - Y (ix2 r q)) * (L (ix3 r q v) - Y (ix2 r q)))
      = tileSum A B (t.val / 4 * 8 + r.val) (t.val % 4) := by
  unfold tileSum sqDev
  refine Finset.sum_congr rfl fun q _ => Finset.sum_congr rfl fun v _ => ?_
  rw [hL q v, hY q]

end Cert.KernelIdeal.Blocks

end
-- ==== Proof.Accumulate.lean ====
/-
  What the accumulator and the two output blocks hold after each grid point.

  Within a group of eight examples the four points `4g, …, 4g + 3` run over the four runs of 256 tokens. The
  accumulator is reset at the first and stepped at every point, so after point `n` its row `r` holds the sum of the
  runs `0, …, n % 4` of example `8 (n / 4) + r`'s squared deviations — by induction on the point: a first point starts
  from zero, a later point adds its run to what the point before left (the group and the example do not change,
  the run's number grows by one). After a group's last point that is the example's whole sum, and the loss block is
  its scaling. The entropy block depends on the point's own block of probabilities only.
-/
import proofs.«135492_j17626545783502_2_alg».proof.Proof.Pieces
import proofs.«135492_j17626545783502_2_alg».proof.Proof.Payloads
import proofs.«135492_j17626545783502_2_alg».proof.Proof.Blocks

noncomputable section

namespace Cert.KernelIdeal.Accumulate

open Idealize.ShloMosaic Idealize.ShloMosaic.TcCoe Idealize.SL.Sem Idealize.ShloMosaic.ValueIdx
open Idealize.ShloMosaic.Pipeline (Dat)
open Cert.KernelIdeal Cert.KernelIdeal.Gen Cert.Spec

/-! ## One point, over any blocks -/

/-- A group's first point leaves in the accumulator's row `r` the block's sum of squared deviations of that row. -/
theorem step_A (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x256 .f32) (harg6 : arg6.IsWhole) (arg7 : Memref sig .tc .vmem S8x1 .f32) (harg7 : arg7.IsWhole) (hc0 : cond0_0 i) (hc1 : ¬cond0_1 i)
    (x0 : FVec Ideal S8x256x512 .f32) (x1 : FVec Ideal S8x256x512 .f32) (x2 : FVec Ideal S8x256 .f32) (r : Fin 8) (u : Fin 1) :
    sout0_A_0 (F := Ideal) c i arg2 harg2 arg3 harg3 arg4 harg4 arg5 harg5 arg6 harg6 arg7 harg7 hc0 hc1 x0 x1 x2 (ix2 r u) = ∑ q : Fin 256, ∑ v : Fin 512, (x0 (ix3 r q v) - x2 (ix2 r q)) * (x0 (ix3 r q v) - x2 (ix2 r q)) := by
  rw [Pieces.scratch_A, Payload.acc_step_apply, Payload.acc_reset_apply, zero_add]

/-- A middle point adds the block's sum of row `r` to what the accumulator held. -/
theorem step_B (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x256 .f32) (harg6 : arg6.IsWhole) (arg7 : Memref sig .tc .vmem S8x1 .f32) (harg7 : arg7.IsWhole) (hc0 : ¬cond0_0 i) (hc1 : ¬cond0_1 i)
    (x0 : FVec Ideal S8x256x512 .f32) (x1 : FVec Ideal S8x256x512 .f32) (x2 : FVec Ideal S8x256 .f32) (xs0 : FVec Ideal S8x1 .f32) (r : Fin 8) (u : Fin 1) :
    sout0_B_0 (F := Ideal) c i arg2 harg2 arg3 harg3 arg4 harg4 arg5 harg5 arg6 harg6 arg7 harg7 hc0 hc1 x0 x1 x2 xs0 (ix2 r u) = xs0 (ix2 r u) + ∑ q : Fin 256, ∑ v : Fin 512, (x0 (ix3 r q v) - x2 (ix2 r q)) * (x0 (ix3 r q v) - x2 (ix2 r q)) := by
  rw [Pieces.scratch_B, Payload.acc_step_apply]

/-- So does a group's last point. -/
theorem step_C (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x256 .f32) (harg6 : arg6.IsWhole) (arg7 : Memref sig .tc .vmem S8x1 .f32) (harg7 : arg7.IsWhole) (hc0 : ¬cond0_0 i) (hc1 : cond0_1 i)
    (x0 : FVec Ideal S8x256x512 .f32) (x1 : FVec Ideal S8x256x512 .f32) (x2 : FVec Ideal S8x256 .f32) (xs0 : FVec Ideal S8x1 .f32) (r : Fin 8) (u : Fin 1) :
    sout0_C_0 (F := Ideal) c i arg2 harg2 arg3 harg3 arg4 harg4 arg5 harg5 arg6 harg6 arg7 harg7 hc0 hc1 x0 x1 x2 xs0 (ix2 r u) = xs0 (ix2 r u) + ∑ q : Fin 256, ∑ v : Fin 512, (x0 (ix3 r q v) - x2 (ix2 r q)) * (x0 (ix3 r q v) - x2 (ix2 r q)) := by
  rw [Pieces.scratch_C, Payload.acc_step_apply]

/-- and its loss block is the scaling of the accumulator it leaves. -/
theorem loss_C (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x256 .f32) (harg6 : arg6.IsWhole) (arg7 : Memref sig .tc .vmem S8x1 .f32) (harg7 : arg7.IsWhole) (hc0 : ¬cond0_0 i) (hc1 : cond0_1 i)
    (x0 : FVec Ideal S8x256x512 .f32) (x1 : FVec Ideal S8x256x512 .f32) (x2 : FVec Ideal S8x256 .f32) (xs0 : FVec Ideal S8x1 .f32) (r : Fin 8) (u : Fin 1) :
    out0_C_3 (F := Ideal) c i arg2 harg2 arg3 harg3 arg4 harg4 arg5 harg5 arg6 harg6 arg7 harg7 hc0 hc1 x0 x1 x2 xs0 (ix2 r u)
      = sout0_C_0 (F := Ideal) c i arg2 harg2 arg3 harg3 arg4 harg4 arg5 harg5 arg6 harg6 arg7 harg7 hc0 hc1 x0 x1 x2 xs0 (ix2 r u) * Ideal.ofBits .f32 0x36000000#32 := by
  rw [Pieces.loss_C, Pieces.scratch_C, Payload.scaled_apply]

/-! ## Point by point -/

variable (m : (ℓ : Loc nD τ sig) → Buf (Elt Ideal) ℓ)

/-- After point `n` the accumulator's row `r` holds the runs `0, …, n % 4` of example `8 (n / 4) + r`'s sum. -/
theorem acc_after (c : Dev nD) (r : Fin 8) (u : Fin 1) : ∀ (n : ℕ) (h : n < cfg0.N),
    ((outsAt0 m c n h).2.2 : FVec Ideal S8x1 .f32) (ix2 r u)
      = ∑ j ∈ Finset.range (n % 4 + 1), tileSum (V m c main_arg3) (V m c main_v19) (n / 4 * 8 + r.val) j := by
  intro n
  induction n with
  | zero =>
    intro h
    have h0 : (⟨0, h⟩ : Fin cfg0.N).val % 4 = 0 := rfl
    have h1 : ¬(⟨0, h⟩ : Fin cfg0.N).val % 4 = 3 := by show ¬(0 % 4 = 3); decide
    rw [outsAt0_A m c ⟨0, h⟩ h0 h1]
    dsimp only
    refine (step_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) r u).trans ?_
    refine (Blocks.tile_eq (iblk m c 0 ⟨0, h⟩) (iblk m c 2 ⟨0, h⟩) (V m c main_arg3) (V m c main_v19) ⟨0, h⟩ r (Blocks.logits_blk m c ⟨0, h⟩ r) (Blocks.targets_blk m c ⟨0, h⟩ r)).trans ?_
    show tileSum _ _ (0 / 4 * 8 + r.val) (0 % 4) = _
    rw [Nat.zero_mod, Nat.zero_add, Finset.sum_range_one]
  | succ n ih =>
    intro h
    have hN : n + 1 < 64 := lt_of_lt_of_eq h N_0
    by_cases h0 : (n + 1) % 4 = 0
    · have h1 : ¬(n + 1) % 4 = 3 := by omega
      rw [outsAt0_A m c ⟨n + 1, h⟩ h0 h1]
      dsimp only
      refine (step_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) r u).trans ?_
      refine (Blocks.tile_eq (iblk m c 0 ⟨n + 1, h⟩) (iblk m c 2 ⟨n + 1, h⟩) (V m c main_arg3) (V m c main_v19) ⟨n + 1, h⟩ r (Blocks.logits_blk m c ⟨n + 1, h⟩ r) (Blocks.targets_blk m c ⟨n + 1, h⟩ r)).trans ?_
      show tileSum _ _ ((n + 1) / 4 * 8 + r.val) ((n + 1) % 4) = _
      rw [h0, Nat.zero_add, Finset.sum_range_one]
    · have e1 : (n + 1) % 4 = n % 4 + 1 := by omega
      have e2 : (n + 1) / 4 = n / 4 := by omega
      by_cases h1 : (n + 1) % 4 = 3
      · rw [outsAt0_C m c ⟨n + 1, h⟩ h0 h1]
        dsimp only
        refine (step_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2.2 r u).trans ?_
        rw [ih (Nat.lt_of_succ_lt h), (Blocks.tile_eq (iblk m c 0 ⟨n + 1, h⟩) (iblk m c 2 ⟨n + 1, h⟩) (V m c main_arg3) (V m c main_v19) ⟨n + 1, h⟩ r (Blocks.logits_blk m c ⟨n + 1, h⟩ r) (Blocks.targets_blk m c ⟨n + 1, h⟩ r))]
        show _ + tileSum _ _ ((n + 1) / 4 * 8 + r.val) ((n + 1) % 4) = _
        rw [e1, e2]
        exact (Finset.sum_range_succ _ _).symm
      · rw [outsAt0_B m c ⟨n + 1, h⟩ h0 h1]
        dsimp only
        refine (step_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2.2 r u).trans ?_
        rw [ih (Nat.lt_of_succ_lt h), (Blocks.tile_eq (iblk m c 0 ⟨n + 1, h⟩) (iblk m c 2 ⟨n + 1, h⟩) (V m c main_arg3) (V m c main_v19) ⟨n + 1, h⟩ r (Blocks.logits_blk m c ⟨n + 1, h⟩ r) (Blocks.targets_blk m c ⟨n + 1, h⟩ r))]
        show _ + tileSum _ _ ((n + 1) / 4 * 8 + r.val) ((n + 1) % 4) = _
        rw [e1, e2]
        exact (Finset.sum_range_succ _ _).symm

/-- After a group's last point the loss block's row `r` is the loss of example `8 (t / 4) + r`. -/
theorem loss_after (c : Dev nD) (t : Fin cfg0.N) (h1 : t.val % 4 = 3) (r : Fin 8) (u : Fin 1) :
    ((outsAt0 m c t.val t.isLt).1 : FVec Ideal S8x1 .f32) (ix2 r u)
      = lossAt (V m c main_arg3) (V m c main_v19) (t.val / 4 * 8 + r.val) := by
  have h0 : ¬t.val % 4 = 0 := by omega
  have hacc := acc_after m c r u t.val t.isLt
  rw [outsAt0_C m c t h0 h1] at hacc ⊢
  dsimp only at hacc ⊢
  refine (loss_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2.2 r u).trans ?_
  rw [hacc, h1]
  unfold lossAt
  rw [sqSum_eq_tiles]

/-- After every point the entropy block is the entropy of the point's block of probabilities. -/
theorem ent_after (c : Dev nD) (t : Fin cfg0.N) :
    ((outsAt0 m c t.val t.isLt).2.1 : FVec Ideal S8x256 .f32) = k0_pay4 (F := Ideal) (iblk m c 1 t) := by
  by_cases h0 : t.val % 4 = 0
  · have h1 : ¬t.val % 4 = 3 := by omega
    rw [outsAt0_A m c t h0 h1]
    dsimp only
    exact Pieces.ent_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun hh => h1 ((hcond0_1 t).mp hh)) (iblk m c 0 t) (iblk m c 1 t) (iblk m c 2 t)
  · by_cases h1 : t.val % 4 = 3
    · rw [outsAt0_C m c t h0 h1]
      dsimp only
      exact Pieces.ent_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2.2
    · rw [outsAt0_B m c t h0 h1]
      dsimp only
      exact Pieces.ent_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (fun hh => h1 ((hcond0_1 t).mp hh)) (iblk m c 0 t) (iblk m c 1 t) (iblk m c 2 t) (outsAt0 m c (t.val - 1) (Nat.lt_of_le_of_lt (Nat.sub_le _ _) t.isLt)).2.2

end Cert.KernelIdeal.Accumulate

end
-- ==== Proof.KernelValue.lean ====
/-
  The kernel's two results after the run.

  Entropies: every grid point writes its `[8, 256]` block back, block `t = 4g + j` at rows `8g …`, columns `256j …`; the
  64 blocks tile the `[128, 1024]` array, and block `t` is the entropy of the probabilities at those tokens. So the array
  is the specification's entropy at every token (the point covering token `(b, k)` is `4 (b / 8) + k / 256`).
  Losses: the `[8, 1]` block of group `g` is written back at the group's last point `4g + 3` only, where it holds the
  scaled whole sums of the examples `8g, …, 8g + 7`; the 16 blocks tile the `[128, 1]` column. The host then reads the
  column as a vector.
-/
import proofs.«135492_j17626545783502_2_alg».proof.Proof.Accumulate
import proofs.«135492_j17626545783502_2_alg».proof.Proof.LibRank3Sums
import Idealize.ShloMosaic.Lib.Pipeline.Value
import Idealize.ShloMosaic.Lib.StableHlo.Run
import Idealize.ShloMosaic.Lib.Tactic

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GridFacts Cert.KernelIdeal.Blocks Cert.KernelIdeal.Accumulate Cert.Spec

variable (m : (ℓ : Loc nD τ sig) → Buf (Elt Ideal) ℓ) (ρ : Dev nD → PrngReg)

/-! ## The entropies -/

/-- What point `t` writes back is block `t` of the specification's entropies. -/
theorem flushed_ent (c : Dev nD) (t : Fin cfg0.N) :
    (dats m 0 c).flushed 4 t = ((cfg0.win 4).blk t).view.read (Elt Ideal) (entArr (V m c main_arg2)) := by
  show (cfg0.win 4).cut (grid0.coords t) ((dats m 0 c).after 4 t) = _
  rw [after0_4, ent_after]
  refine funext fun (y : S8x256.Idx) => ?_
  obtain ⟨r, q, rfl⟩ : ∃ (r : Fin 8) (q : Fin 256), y = ix2 r q := ⟨y 0, y 1, eq_ix2 y⟩
  refine Eq.trans ?_ (read_ent (entAt (V m c main_arg2)) t r q).symm
  show k0_pay4 (F := Ideal) (iblk m c 1 t) (ix2 r q) = _
  rw [Payload.ent_apply]
  unfold entAt
  refine congrArg Neg.neg (Finset.sum_congr rfl fun v _ => ?_)
  rw [probs_blk]

/-- An index of the entropy array is in point `t`'s block iff each coordinate is in the block's range on its axis. -/
theorem mem_blk_ent (t : Fin cfg0.N) (i : S128x1024.Idx) :
    i ∈ ((cfg0.win 4).blk t).view.set ↔ ∀ a : Fin 2, win0_4.index t a * S8x256.size a ≤ (i a).val
      ∧ (i a).val < win0_4.index t a * S8x256.size a + S8x256.size a := by
  show i ∈ ((View.whole main_v20_1).slice (win0_4.rect t)).set ↔ _
  rw [View.set_slice_whole, Rect.mem_set_unit]
  exact Iff.rfl

/-- Token `(b, k)` is in the block of point `4 (b / 8) + k / 256`. -/
theorem cover_ent (i : S128x1024.Idx) :
    ∃ t : Fin cfg0.N, (cfg0.win 4).flush t = true ∧ i ∈ ((cfg0.win 4).blk t).view.set := by
  have h0 : (i 0).val < 128 := (i 0).isLt
  have h1 : (i 1).val < 1024 := (i 1).isLt
  obtain ⟨n, hn⟩ : ∃ n : ℕ, n = (i 0).val / 8 * 4 + (i 1).val / 256 := ⟨_, rfl⟩
  have hlt : n < cfg0.N := by rw [show cfg0.N = 64 from N_0]; omega
  refine ⟨⟨n, hlt⟩, flush0_4 _, ?_⟩
  rw [mem_blk_ent]
  obtain ⟨e0, e1⟩ := idx_ent ⟨n, hlt⟩
  have e0' : win0_4.index ⟨n, hlt⟩ (0 : Fin 2) = n / 4 := e0
  have e1' : win0_4.index ⟨n, hlt⟩ (1 : Fin 2) = n % 4 := e1
  intro a
  match a with
  | ⟨0, _⟩ =>
    show win0_4.index ⟨n, hlt⟩ (0 : Fin 2) * 8 ≤ (i 0).val ∧ (i 0).val < win0_4.index ⟨n, hlt⟩ (0 : Fin 2) * 8 + 8
    rw [e0']; omega
  | ⟨1, _⟩ =>
    show win0_4.index ⟨n, hlt⟩ (1 : Fin 2) * 256 ≤ (i 1).val ∧ (i 1).val < win0_4.index ⟨n, hlt⟩ (1 : Fin 2) * 256 + 256
    rw [e1']; omega

/-- The entropy array after the run. -/
theorem final_ent (c : Dev nD) : (dats m 0 c).arrAt 4 cfg0.N = entArr (V m c main_arg2) :=
  (dats m 0 c).arrAt_eq_of_cover 4 (entArr (V m c main_arg2)) (fun t _ => flushed_ent m c t) cover_ent

/-! ## The losses -/

/-- What a group's last point writes back is that group's block of the specification's loss column. -/
theorem flushed_loss (c : Dev nD) (t : Fin cfg0.N) (hf : (cfg0.win 3).flush t = true) :
    (dats m 0 c).flushed 3 t
      = ((cfg0.win 3).blk t).view.read (Elt Ideal) (lossCol (V m c main_arg3) (V m c main_v19)) := by
  have h1 : t.val % 4 = 3 := (flush0_3 t).mp hf
  show (cfg0.win 3).cut (grid0.coords t) ((dats m 0 c).after 3 t) = _
  rw [after0_3]
  refine funext fun (y : S8x1.Idx) => ?_
  obtain ⟨r, u, rfl⟩ : ∃ (r : Fin 8) (u : Fin 1), y = ix2 r u := ⟨y 0, y 1, eq_ix2 y⟩
  refine Eq.trans ?_ (read_loss (lossAt (V m c main_arg3) (V m c main_v19)) t r u).symm
  show ((outsAt0 m c t.val t.isLt).1 : FVec Ideal S8x1 .f32) (ix2 r u) = _
  exact loss_after m c t h1 r u

/-- An index of the loss column is in point `t`'s block iff each coordinate is in the block's range on its axis. -/
theorem mem_blk_loss (t : Fin cfg0.N) (i : S128x1.Idx) :
    i ∈ ((cfg0.win 3).blk t).view.set ↔ ∀ a : Fin 2, win0_3.index t a * S8x1.size a ≤ (i a).val
      ∧ (i a).val < win0_3.index t a * S8x1.size a + S8x1.size a := by
  show i ∈ ((View.whole main_v20_0).slice (win0_3.rect t)).set ↔ _
  rw [View.set_slice_whole, Rect.mem_set_unit]
  exact Iff.rfl

/-- Example `b`'s entry is in the block written back at the last point `4 (b / 8) + 3` of its group. -/
theorem cover_loss (i : S128x1.Idx) :
    ∃ t : Fin cfg0.N, (cfg0.win 3).flush t = true ∧ i ∈ ((cfg0.win 3).blk t).view.set := by
  have h0 : (i 0).val < 128 := (i 0).isLt
  have h1 : (i 1).val < 1 := (i 1).isLt
  obtain ⟨n, hn⟩ : ∃ n : ℕ, n = (i 0).val / 8 * 4 + 3 := ⟨_, rfl⟩
  have hlt : n < cfg0.N := by rw [show cfg0.N = 64 from N_0]; omega
  refine ⟨⟨n, hlt⟩, (flush0_3 ⟨n, hlt⟩).mpr (show n % 4 = 3 by omega), ?_⟩
  rw [mem_blk_loss]
  obtain ⟨e0, e1⟩ := idx_loss ⟨n, hlt⟩
  have e0' : win0_3.index ⟨n, hlt⟩ (0 : Fin 2) = n / 4 := e0
  intro a
  match a with
  | ⟨0, _⟩ =>
    show win0_3.index ⟨n, hlt⟩ (0 : Fin 2) * 8 ≤ (i 0).val ∧ (i 0).val < win0_3.index ⟨n, hlt⟩ (0 : Fin 2) * 8 + 8
    rw [e0']; omega
  | ⟨1, _⟩ =>
    show win0_3.index ⟨n, hlt⟩ (1 : Fin 2) * 1 ≤ (i 1).val ∧ (i 1).val < win0_3.index ⟨n, hlt⟩ (1 : Fin 2) * 1 + 1
    rw [e1]; omega

/-- The loss column after the run. -/
theorem final_loss (c : Dev nD) :
    (dats m 0 c).arrAt 3 cfg0.N = lossCol (V m c main_arg3) (V m c main_v19) :=
  (dats m 0 c).arrAt_eq_of_cover 3 (lossCol (V m c main_arg3) (V m c main_v19)) (flushed_loss m c) cover_loss

/-- The host's reading of the column as a vector is the specification's loss. -/
theorem tail_loss (c : Dev nD) :
    Pipeline.afterTail₀ cfgs (dats m) 0 (V0 m) [hostOps1] c main_v21
      = lossArr (V m c main_arg3) (V m c main_v19) := by
  unfold Pipeline.afterTail₀
  show StableHlo.after hostOps1 _ (Proc.devRef .tc main_v21) = _
  after_results
  rw [show Pipeline.withArrays (cfgs 0).spec c (V0 m c) (fun w => (dats m 0 c).arrAt w (cfgs 0).N)
        (Proc.devRef .tc main_v20_0) = lossCol (V m c main_arg3) (V m c main_v19) from
      (Pipeline.withArrays_arr spec0 launch0.win.arr_inj c _ _ 3).trans (final_loss m c)]
  funext j
  obtain ⟨b, rfl⟩ : ∃ b : Fin 128, j = ix1 b := ⟨j 0, eq_ix1 j⟩
  show shapeCast S128 (lossCol (V m c main_arg3) (V m c main_v19)) shapeCasts_S128x1_S128 (ix1 b)
    = lossAt (V m c main_arg3) (V m c main_v19) b.val
  exact Cert.LibRank3Sums.shapeCast_a1_a_apply _ _ b 0

/-! ## The run, read -/

/-- Every weakly fair execution of the program terminates with the loss vector and the entropy matrix at the
    specification's functions of the logits, the probabilities and the targets the region finds; the arguments unchanged. -/
theorem run : θ_run defs (onTc (τ := τ) (main (F := Ideal))) ⟨m, fun _ => 0, ρ⟩ fun r => ∀ c : Dev nD,
      r.2.mem ((c.tc : Thread nD τ).loc main_v21)
        = lossArr (m ((c.tc : Thread nD τ).loc main_arg3)) (V m c main_v19)
      ∧ r.2.mem ((c.tc : Thread nD τ).loc main_v20_1) = entArr (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v21 (Pipeline.mem_restRefs_of main_v21 (by decide) (by decide))).trans
        ((tail_loss m c).trans (congrArg (fun x => lossArr x (V m c main_v19)) (V_main_arg3 m c))),
      ((h c).1 4).trans ((final_ent m c).trans (congrArg entArr (V_main_arg2 m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 0).trans (((dats m 0 c).arrAt_in 0 rfl _).trans ((A_eq m c 0).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.LibScalarBroadcast.lean ====
/-
  A scalar broadcast to any shape, read at an index: the scalar. General in the shape and the element type.
-/
import Idealize.ShloMosaic.Lib.Pipeline.Value
import Idealize.ShloMosaic.Lib.ValueIdx

namespace Cert.LibScalarBroadcast

open Idealize.ShloMosaic Idealize.ShloMosaic.ValueIdx

variable {α : Type}

/-- A rank-0 array broadcast (with no dimension mapped) to any shape reads, at every index, its one entry. -/
theorem bcast_scalar_apply {s : Shape} (h : (⟨0, ![]⟩ : Shape).BroadcastsInDim s (![] : Fin 0 → Fin s.rank))
    (x : (⟨0, ![]⟩ : Shape).Idx → α) (j : s.Idx) : broadcastInDim s ![] h x j = x ix0 :=
  broadcastInDim_apply _ h x j ix0 (fun a => a.elim0)

end Cert.LibScalarBroadcast
-- ==== Proof.TargetSpec.lean ====
/-
  The per-token target as a function of the presence mask: `+1` where the mask's bit is set, `−1` elsewhere (the words
  of `1.0` and `−1.0`; they are the same two words in both programs and are never evaluated).
-/
import Idealize.ShloMosaic.PureOps.Ideal
import Idealize.ShloMosaic.Lib.ValueIdx

noncomputable section

namespace Cert.Spec

open Idealize.ShloMosaic

/-- The `[128, 1024]` array of targets selected by a `[128, 1024]` mask of bits. -/
def tgt (μ : (⟨2, ![128, 1024]⟩ : Shape).Idx → BitVec 1) : (⟨2, ![128, 1024]⟩ : Shape).Idx → EReal :=
  fun j => Scalar.select (μ j) (Ideal.ofBits .f32 0x3F800000#32) (Ideal.ofBits .f32 0xBF800000#32)

end Cert.Spec

end
-- ==== Proof.KernelTarget.lean ====
/-
  The targets the region finds. The host operations before the region end in a selection, by a mask of bits, between
  the words of `1` and `−1` broadcast over the `[128, 1024]` tokens; whatever the mask, that array is the
  specification's target function of it.
-/
import proofs.«135492_j17626545783502_2_alg».proof.Proof.Gen.KernelIdeal.Frame
import proofs.«135492_j17626545783502_2_alg».proof.Proof.LibScalarBroadcast
import proofs.«135492_j17626545783502_2_alg».proof.Proof.TargetSpec
import Idealize.ShloMosaic.Lib.Pipeline.Value
import Idealize.ShloMosaic.Lib.ValueIdx

noncomputable section

namespace Cert.KernelIdeal.Target

open Idealize.ShloMosaic Idealize.ShloMosaic.TcCoe Idealize.SL.Sem Idealize.ShloMosaic.ValueIdx
open Cert.KernelIdeal Cert.KernelIdeal.Gen Cert.Spec Cert.LibScalarBroadcast

/-- A selection by `msk` between the broadcast words of `1` and `−1` is the target function of `msk`. -/
theorem select_eq_tgt (msk : IVec S128x1024 1) :
    (id (select msk (broadcastInDim S128x1024 ![] bcast_S_S128x1024 (constant (F := Ideal) S_ .f32 0x3F800000#32))
        (broadcastInDim S128x1024 ![] bcast_S_S128x1024 (constant (F := Ideal) S_ .f32 0xBF800000#32)))
      : S128x1024.Idx → EReal) = tgt msk := by
  funext j
  show Scalar.select (msk j)
      (broadcastInDim S128x1024 ![] bcast_S_S128x1024 (constant (F := Ideal) S_ .f32 0x3F800000#32) j)
      (broadcastInDim S128x1024 ![] bcast_S_S128x1024 (constant (F := Ideal) S_ .f32 0xBF800000#32) j) = tgt msk j
  rw [bcast_scalar_apply, bcast_scalar_apply]
  rfl

end Cert.KernelIdeal.Target

end
-- ==== Proof.LibHostRank3.lean ====
/-
  Host operations on a rank-3 array of rows, read at an index given by coordinates, at the ideal values and for any
  extents.

  • `dotGeneral_rowsMat_apply`: a stack of rows [G, m, k] times a matrix [k, n], contracting the rows' last axis with the
    matrix's first (no batch axis): at (g, a, b) the sum over the contraction position c of A (g, a, c) · B (c, b) —
    a linear layer `x · W` applied to every row of every member.
  • `hostReduceAdd_mid3_apply`: the host's sum over the MIDDLE axis of a rank-3 array, at (a, c): the initial value
    plus the sum over the middle coordinate.
  • five readings of the host's `broadcast_in_dim` into a rank-3 shape: a vector along the last axis (through
    [1, 1, c]), a vector along the middle axis with a unit last axis (through [1, b, 1]), a matrix [a, c] repeated
    along a new middle axis (through [a, 1, c]), a matrix [a, b] given a unit last axis, and a unit last axis
    repeated.
-/
import Idealize.ShloMosaic.PureOps.Ideal.Laws
import Idealize.ShloMosaic.Lib.ValueIdx
import Idealize.ShloMosaic.Lib.Pipeline.Value

namespace Cert.Lib.HostRank3

open Idealize.ShloMosaic Idealize.ShloMosaic.ValueIdx

/-- `dot_general` of [G, m, k] with [k, n], contracting axes 2 and 0, no batch axes, result [G, m, n]: at (g, a, b) the
    sum over the contracted coordinate of the products of row (g, a) with column b. At the ideal values. -/
theorem dotGeneral_rowsMat_apply {G m k n : Nat} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r2 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r2]

/-- The host's `reduce … add` over the middle axis of a rank-3 array, at (a, c): the initial value's element plus the
    sum over the middle coordinate. At the ideal values. -/
theorem hostReduceAdd_mid3_apply {n0 n1 n2 : Nat} {φ : FTy} {u : Shape}
    (x : FVec Ideal ⟨3, ![n0, n1, n2]⟩ φ) (init : u.Idx → Ideal φ)
    (h' : (⟨3, ![n0, n1, n2]⟩ : Shape).ReducesTo [1] ⟨2, ![n0, n2]⟩) (hu : 0 < u.numel) (a : Fin n0) (c : Fin n2) :
    Host.reduceAdd x init h' hu (ix2 a c) = init (Shape.Idx.first hu) + ∑ b : Fin n1, x (ix3 a b c) := by
  have h : (⟨3, ![n0, n1, n2]⟩ : Shape).Reduces [1] ⟨2, ![n0, n2]⟩ := ⟨h'.1, Nat.two_pos, h'.2⟩
  show Ideal.hostReduceAdd h' x _ (ix2 a c) = _
  rw [Ideal.hostReduceAdd_single h' h]
  refine congrArg (init (Shape.Idx.first hu) + ·) (Finset.sum_congr rfl fun b _ => congrArg x ?_)
  funext ax; apply Fin.ext
  match ax with
  | ⟨0, _⟩ => rfl
  | ⟨1, _⟩ => rfl
  | ⟨2, _⟩ => rfl

variable {α : Type}

/-- A vector [c] laid along the last axis of [a, b, c] (through [1, 1, c]): at (p, q, k) the vector's entry k. -/
theorem bcast_last_apply {a b c : ℕ} (x : (⟨1, ![c]⟩ : Shape).Idx → α)
    (h1 : (⟨1, ![c]⟩ : Shape).BroadcastsInDim ⟨3, ![1, 1, c]⟩ (![2] : Fin 1 → Fin 3))
    (h2 : (⟨3, ![1, 1, c]⟩ : Shape).BroadcastsInDim ⟨3, ![a, b, c]⟩ (![0, 1, 2] : Fin 3 → Fin 3))
    (p : Fin a) (q : Fin b) (k : Fin c) :
    broadcastInDim ⟨3, ![a, b, c]⟩ ![0, 1, 2] h2 (broadcastInDim ⟨3, ![1, 1, c]⟩ ![2] h1 x) (ix3 p q k) = x (ix1 k) := by
  refine (broadcastInDim_apply _ h2 _ (ix3 p q k) (ix3 (0 : Fin 1) (0 : Fin 1) k) fun ax => ?_).trans ?_
  · match ax with
    | ⟨0, _⟩ => rfl
    | ⟨1, _⟩ => rfl
    | ⟨2, _⟩ =>
      show k.val = if c = 1 then 0 else k.val
      split
      · have := k.isLt; omega
      · rfl
  refine broadcastInDim_apply _ h1 x _ (ix1 k) fun ax => ?_
  match ax with
  | ⟨0, _⟩ =>
    show k.val = if c = 1 then 0 else k.val
    split
    · have := k.isLt; omega
    · rfl

/-- A vector [b] laid along the middle axis of [a, b, 1] (through [1, b, 1]): at (p, q, u) the vector's entry q. -/
theorem bcast_mid_apply {a b : ℕ} (x : (⟨1, ![b]⟩ : Shape).Idx → α)
    (h1 : (⟨1, ![b]⟩ : Shape).BroadcastsInDim ⟨3, ![1, b, 1]⟩ (![1] : Fin 1 → Fin 3))
    (h2 : (⟨3, ![1, b, 1]⟩ : Shape).BroadcastsInDim ⟨3, ![a, b, 1]⟩ (![0, 1, 2] : Fin 3 → Fin 3))
    (p : Fin a) (q : Fin b) (u : Fin 1) :
    broadcastInDim ⟨3, ![a, b, 1]⟩ ![0, 1, 2] h2 (broadcastInDim ⟨3, ![1, b, 1]⟩ ![1] h1 x) (ix3 p q u) = x (ix1 q) := by
  refine (broadcastInDim_apply _ h2 _ (ix3 p q u) (ix3 (0 : Fin 1) q (0 : Fin 1)) fun ax => ?_).trans ?_
  · match ax with
    | ⟨0, _⟩ => rfl
    | ⟨1, _⟩ =>
      show q.val = if b = 1 then 0 else q.val
      split
      · have := q.isLt; omega
      · rfl
    | ⟨2, _⟩ => rfl
  refine broadcastInDim_apply _ h1 x _ (ix1 q) fun ax => ?_
  match ax with
  | ⟨0, _⟩ =>
    show q.val = if b = 1 then 0 else q.val
    split
    · have := q.isLt; omega
    · rfl

/-- A matrix [a, c] repeated along a new middle axis of [a, b, c] (through [a, 1, c]): at (p, q, k) the entry (p, k). -/
theorem bcast_rows_apply {a b c : ℕ} (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, b, c]⟩ (![0, 1, 2] : Fin 3 → Fin 3))
    (p : Fin a) (q : Fin b) (k : Fin c) :
    broadcastInDim ⟨3, ![a, b, c]⟩ ![0, 1, 2] h2 (broadcastInDim ⟨3, ![a, 1, c]⟩ ![0, 2] h1 x) (ix3 p q k) = x (ix2 p k) := by
  refine (broadcastInDim_apply _ h2 _ (ix3 p q k) (ix3 p (0 : Fin 1) k) fun ax => ?_).trans ?_
  · match ax with
    | ⟨0, _⟩ =>
      show p.val = if a = 1 then 0 else p.val
      split
      · have := p.isLt; omega
      · rfl
    | ⟨1, _⟩ => rfl
    | ⟨2, _⟩ =>
      show k.val = if c = 1 then 0 else k.val
      split
      · have := k.isLt; omega
      · rfl
  refine broadcastInDim_apply _ h1 x _ (ix2 p k) fun ax => ?_
  match ax with
  | ⟨0, _⟩ =>
    show p.val = if a = 1 then 0 else p.val
    split
    · have := p.isLt; omega
    · rfl
  | ⟨1, _⟩ =>
    show k.val = if c = 1 then 0 else k.val
    split
    · have := k.isLt; omega
    · rfl

/-- A matrix [a, b] given a unit last axis: at (p, q, u) the entry (p, q). -/
theorem bcast_unitLast_apply {a b : ℕ} (x : (⟨2, ![a, b]⟩ : Shape).Idx → α)
    (h : (⟨2, ![a, b]⟩ : Shape).BroadcastsInDim ⟨3, ![a, b, 1]⟩ (![0, 1] : Fin 2 → Fin 3))
    (p : Fin a) (q : Fin b) (u : Fin 1) :
    broadcastInDim ⟨3, ![a, b, 1]⟩ ![0, 1] h x (ix3 p q u) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A unit last axis repeated: [a, b, 1] to [a, b, c] reads, at (p, q, k), the entry (p, q, 0). -/
theorem bcast_spread_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3))
    (p : Fin a) (q : Fin b) (k : Fin c) :
    broadcastInDim ⟨3, ![a, b, c]⟩ ![0, 1, 2] h x (ix3 p q k) = x (ix3 p q (0 : Fin 1)) := by
  refine broadcastInDim_apply _ h x _ (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Cert.Lib.HostRank3
-- ==== Proof.RefValue.lean ====
/-
  The reference's two results are the specification's functions of its arguments, for ANY mask of bits.

  Loss: the reference gives the mask's selection between `1` and `−1` a unit axis, broadcasts it over the vocabulary,
  subtracts it from the logits, squares, sums over tokens and vocabulary at once from zero, and divides by `2¹⁹` —
  which on every extended real is the product with `2⁻¹⁹`.
  Entropy: the reference's `−(0 + ∑_v …)` of the two selections on `p > 0` is `−∑_v plogp p` term by term.
  Both are stated over a variable mask and variable arrays, so that the mask the program computes is never opened.
-/
import proofs.«135492_j17626545783502_2_alg».proof.Proof.Gen.ReferenceIdeal
import proofs.«135492_j17626545783502_2_alg».proof.Proof.LibRank3Sums
import proofs.«135492_j17626545783502_2_alg».proof.Proof.LibHostRank3
import proofs.«135492_j17626545783502_2_alg».proof.Proof.LibScalarBroadcast
import proofs.«135492_j17626545783502_2_alg».proof.Proof.Spec
import proofs.«135492_j17626545783502_2_alg».proof.Proof.TargetSpec
import Idealize.ShloMosaic.Lib.Pipeline.Value
import Idealize.ShloMosaic.Lib.ValueIdx
import Idealize.ShloMosaic.PureOps.Ideal.Laws

noncomputable section

namespace Cert.RefValue

open Idealize.ShloMosaic Idealize.ShloMosaic.ValueIdx
open Cert.ReferenceIdeal Cert.ReferenceIdeal.Gen Cert.Spec Cert.LibScalarBroadcast

/-- The reference's target array of a mask: the selection between `1` and `−1`, given a unit axis and broadcast over
    the vocabulary. -/
abbrev refTarget (msk : IVec S128x1024 1) : FVec Ideal S128x1024x512 .f32 :=
  broadcastInDim S128x1024x512 ![0, 1, 2] bcast_S128x1024x1_S128x1024x512_0_1_2
    (id (select (broadcastInDim S128x1024x1 ![0, 1] bcast_S128x1024_S128x1024x1_0_1 msk)
      (broadcastInDim S128x1024x1 ![] bcast_S_S128x1024x1 (constant (F := Ideal) S_ .f32 0x3F800000#32))
      (broadcastInDim S128x1024x1 ![] bcast_S_S128x1024x1 (constant (F := Ideal) S_ .f32 0xBF800000#32))))

/-- At `(b, k, v)` it is the mask's selection for token `(b, k)`. -/
theorem refTarget_apply (msk : IVec S128x1024 1) (b : Fin 128) (k : Fin 1024) (v : Fin 512) :
    refTarget msk (ix3 b k v) = tgt msk (ix2 b k) := by
  refine (Cert.Lib.HostRank3.bcast_spread_apply _ _ b k v).trans ?_
  show Scalar.select (broadcastInDim S128x1024x1 ![0, 1] bcast_S128x1024_S128x1024x1_0_1 msk (ix3 b k (0 : Fin 1)))
      (broadcastInDim S128x1024x1 ![] bcast_S_S128x1024x1 (constant (F := Ideal) S_ .f32 0x3F800000#32) (ix3 b k (0 : Fin 1)))
      (broadcastInDim S128x1024x1 ![] bcast_S_S128x1024x1 (constant (F := Ideal) S_ .f32 0xBF800000#32) (ix3 b k (0 : Fin 1)))
    = tgt msk (ix2 b k)
  rw [Cert.Lib.HostRank3.bcast_unitLast_apply, bcast_scalar_apply, bcast_scalar_apply]
  rfl

/-- The reference's loss of any logits and any mask is the specification's loss of the logits and the mask's targets. -/
theorem loss_eq (x3 : FVec Ideal S128x1024x512 .f32) (msk : IVec S128x1024 1) :
    Host.divf (Host.reduceAdd (mulf (subf x3 (refTarget msk)) (subf x3 (refTarget msk)))
        (constant (F := Ideal) S_ .f32 0x00000000#32) reducesTo_S128x1024x512_S128_d1_2 h_S_)
      (broadcastInDim S128 ![] bcast_S_S128 (constant (F := Ideal) S_ .f32 0x49000000#32))
    = lossArr x3 (tgt msk) := by
  funext j
  obtain ⟨b, rfl⟩ : ∃ b : Fin 128, j = ix1 b := ⟨j 0, eq_ix1 j⟩
  show Ideal.div (Host.reduceAdd (mulf (subf x3 (refTarget msk)) (subf x3 (refTarget msk)))
        (constant (F := Ideal) S_ .f32 0x00000000#32) reducesTo_S128x1024x512_S128_d1_2 h_S_ (ix1 b))
      (broadcastInDim S128 ![] bcast_S_S128 (constant (F := Ideal) S_ .f32 0x49000000#32) (ix1 b))
    = lossAt x3 (tgt msk) b.val
  rw [bcast_scalar_apply]
  show Ideal.div _ (Ideal.ofBits .f32 0x49000000#32) = _
  rw [div_scale]
  unfold lossAt
  refine congrArg (· * Ideal.ofBits .f32 0x36000000#32) ?_
  simp only [Host.reduceAdd, Ideal.hostReduceAdd_def]
  rw [Cert.LibRank3Sums.hostSum12_apply]
  show Ideal.ofBits .f32 0x00000000#32 + _ = _
  rw [Ideal.ofBits_zero_f32, zero_add]
  unfold sqSum
  refine Finset.sum_congr rfl fun k _ => Finset.sum_congr rfl fun v _ => ?_
  unfold sqDev
  rw [at3_mk, at2_mk, mulf_apply, subf_apply, refTarget_apply]

/-- One term of the reference's entropy sum: the two selections on `p > 0`, at any index, are `plogp` of the entry. -/
theorem plogp_term (x2 : FVec Ideal S128x1024x512 .f32) (i : S128x1024x512.Idx) :
    select (cmpf .ogt x2 (broadcastInDim S128x1024x512 ![] bcast_S_S128x1024x512 (constant (F := Ideal) S_ .f32 0x00000000#32)))
        (mulf x2 (Host.log (select (cmpf .ogt x2 (broadcastInDim S128x1024x512 ![] bcast_S_S128x1024x512 (constant (F := Ideal) S_ .f32 0x00000000#32)))
          x2 (broadcastInDim S128x1024x512 ![] bcast_S_S128x1024x512 (id (constant (F := Ideal) S_ .f32 0x3F800000#32))))))
        (broadcastInDim S128x1024x512 ![] bcast_S_S128x1024x512 (id (constant (F := Ideal) S_ .f32 0x00000000#32))) i
      = plogp (x2 i) := by
  show Scalar.select (Ideal.cmp .ogt (x2 i)
        (broadcastInDim S128x1024x512 ![] bcast_S_S128x1024x512 (constant (F := Ideal) S_ .f32 0x00000000#32) i))
      (x2 i * Ideal.log (Scalar.select (Ideal.cmp .ogt (x2 i)
          (broadcastInDim S128x1024x512 ![] bcast_S_S128x1024x512 (constant (F := Ideal) S_ .f32 0x00000000#32) i))
        (x2 i)
        (broadcastInDim S128x1024x512 ![] bcast_S_S128x1024x512 (id (constant (F := Ideal) S_ .f32 0x3F800000#32)) i)))
      (broadcastInDim S128x1024x512 ![] bcast_S_S128x1024x512 (id (constant (F := Ideal) S_ .f32 0x00000000#32)) i)
    = plogp (x2 i)
  rw [bcast_scalar_apply, bcast_scalar_apply, bcast_scalar_apply]
  rfl

/-- The reference's entropy of any probabilities is the specification's. -/
theorem ent_eq (x2 : FVec Ideal S128x1024x512 .f32) :
    Host.negf (Host.reduceAdd
        (select (cmpf .ogt x2 (broadcastInDim S128x1024x512 ![] bcast_S_S128x1024x512 (constant (F := Ideal) S_ .f32 0x00000000#32)))
          (mulf x2 (Host.log (select (cmpf .ogt x2 (broadcastInDim S128x1024x512 ![] bcast_S_S128x1024x512 (constant (F := Ideal) S_ .f32 0x00000000#32)))
            x2 (broadcastInDim S128x1024x512 ![] bcast_S_S128x1024x512 (id (constant (F := Ideal) S_ .f32 0x3F800000#32))))))
          (broadcastInDim S128x1024x512 ![] bcast_S_S128x1024x512 (id (constant (F := Ideal) S_ .f32 0x00000000#32))))
        (constant (F := Ideal) S_ .f32 0x00000000#32) reducesTo_S128x1024x512_S128x1024_d2 h_S_)
    = entArr x2 := by
  funext j
  obtain ⟨b, k, rfl⟩ : ∃ (b : Fin 128) (k : Fin 1024), j = ix2 b k := ⟨j 0, j 1, eq_ix2 j⟩
  show -(Host.reduceAdd _ (constant (F := Ideal) S_ .f32 0x00000000#32) reducesTo_S128x1024x512_S128x1024_d2 h_S_ (ix2 b k))
    = entAt x2 b.val k.val
  simp only [Host.reduceAdd, Ideal.hostReduceAdd_def]
  rw [Cert.LibRank3Sums.hostSum2_apply]
  show -(Ideal.ofBits .f32 0x00000000#32 + _) = _
  rw [Ideal.ofBits_zero_f32, zero_add]
  unfold entAt
  refine congrArg Neg.neg (Finset.sum_congr rfl fun v _ => ?_)
  rw [at3_mk]
  exact plogp_term x2 (ix3 b k v)

end Cert.RefValue

end
-- ==== Proof.lean ====
/-
  A per-example mean squared error against per-token targets, and a per-token categorical entropy, computed by a tiled
  kernel and by the plain reference: equal on the extended reals.

  The arguments: logits `x` and probabilities `p`, both `[128, 1024, 512]` (example, token, vocabulary entry), and an
  integer array from which BOTH programs compute, by the same host operations, a `[128, 1024]` mask of bits; the
  target of a token is `1` where its bit is set and `−1` elsewhere. Two further arguments are read by neither.

    loss b       =  ( ∑_{k < 1024} ∑_{v < 512} (x b k v − target b k)² ) · 2⁻¹⁹
    entropy b k  =  − ∑_{v < 512} plogp (p b k v),   plogp q = q · log q where q > 0, and 0 elsewhere.

  The kernel runs over a grid of 16 groups of eight examples × 4 runs of 256 tokens. Per point it adds the block's
  sum of squares to an accumulator that it resets at a group's first point, and writes the entropy block; at a group's
  last point it writes the accumulator times the word of `2⁻¹⁹`. The reference sums over tokens and vocabulary at once
  and divides by `2¹⁹`. The two agree because (i) a sum on the extended reals may be regrouped into the four runs
  without any finiteness (addition commutes and associates), (ii) division by `2¹⁹` is multiplication by the exactly
  representable `2⁻¹⁹` on every extended real, (iii) `0 − s = −s` and `0 + s = s`, and (iv) the two programs' logarithm
  and comparison are the same functions there. The precondition is not needed for the equality and is never opened.

  The mask is never opened either: the reference's results are read for an arbitrary mask, the kernel's for an
  arbitrary target array, and the two masks are the same term of the same argument.

  Modules: Spec, TargetSpec (the functions above); RefValue (the reference's results are those functions); Pieces,
  Payloads, GridFacts, Blocks, Accumulate (what each grid point leaves); KernelValue (the result arrays and the run);
  KernelTarget (the targets as the mask's selection). The three frames are the generated ones; the ideal pass rewrote
  nothing, so `preserves` is trivial.
-/
import proofs.«135492_j17626545783502_2_alg».proof.Defs
import proofs.«135492_j17626545783502_2_alg».proof.Proof.Gen.Kernel
import proofs.«135492_j17626545783502_2_alg».proof.Proof.Gen.Kernel.Skeleton
import proofs.«135492_j17626545783502_2_alg».proof.Proof.Gen.Kernel.Launch
import proofs.«135492_j17626545783502_2_alg».proof.Proof.Gen.Kernel.Points
import proofs.«135492_j17626545783502_2_alg».proof.Proof.Gen.Kernel.Frame
import proofs.«135492_j17626545783502_2_alg».proof.Proof.Gen.KernelIdeal
import proofs.«135492_j17626545783502_2_alg».proof.Proof.Gen.KernelIdeal.Skeleton
import proofs.«135492_j17626545783502_2_alg».proof.Proof.Gen.KernelIdeal.Launch
import proofs.«135492_j17626545783502_2_alg».proof.Proof.Gen.KernelIdeal.Points
import proofs.«135492_j17626545783502_2_alg».proof.Proof.Gen.KernelIdeal.Frame
import proofs.«135492_j17626545783502_2_alg».proof.Proof.Gen.ReferenceIdeal
import proofs.«135492_j17626545783502_2_alg».proof.Proof.Gen.ReferenceIdeal.Run
import proofs.«135492_j17626545783502_2_alg».proof.Proof.Gen.Pre_finite_inputs
import proofs.«135492_j17626545783502_2_alg».proof.Proof.KernelValue
import proofs.«135492_j17626545783502_2_alg».proof.Proof.KernelTarget
import proofs.«135492_j17626545783502_2_alg».proof.Proof.RefValue
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

set_option maxRecDepth 8192 in
set_option maxHeartbeats 2000000 in
/-- Both programs end with the specification's loss and entropy of arguments that agree; the reference's mask and
    the mask behind the kernel's targets are the same operations of the same integer argument. -/
theorem algebraic : Cert.algebraic_KernelIdeal_ReferenceIdeal := by
  intro m ρ m' ρ' _ hagree
  refine ⟨fun c => Cert.Spec.lossArr (m ((c.tc : Thread Cert.KernelIdeal.nD Cert.KernelIdeal.τ).loc Cert.KernelIdeal.main_arg3))
        (Cert.KernelIdeal.Gen.V m c Cert.KernelIdeal.main_v19),
      fun c => Cert.Spec.entArr (m ((c.tc : Thread Cert.KernelIdeal.nD Cert.KernelIdeal.τ).loc Cert.KernelIdeal.main_arg2)),
      Cert.KernelIdeal.Result.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · unfold Cert.ReferenceIdeal.Value.res_main_v26
    refine (Cert.RefValue.loss_eq _ _).trans ?_
    rw [(hagree c).2.2.2.1, (hagree c).2.2.2.2]
    refine congrArg (Cert.Spec.lossArr _) ?_
    refine Eq.trans (Cert.KernelIdeal.Target.select_eq_tgt _).symm ?_
    symm
    dsimp only [Cert.KernelIdeal.Gen.V, Cert.KernelIdeal.Gen.V0]
    simp only [Cert.KernelIdeal.Gen.hostOps0, Cert.KernelIdeal.Gen.hostOps0_1, Cert.KernelIdeal.Gen.hostOps0_2,
      List.flatten_cons, List.flatten_nil, List.append_nil, List.cons_append, List.nil_append]
    after_results_simp
    rfl
  · refine (Cert.RefValue.ent_eq _).trans ?_
    rw [(hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
